-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1000000 : Shape := ⟨2, ![2, 1000000]⟩
abbrev S1000000 : Shape := ⟨1, ![1000000]⟩
abbrev S2x500000 : Shape := ⟨2, ![2, 500000]⟩
abbrev S128x64 : Shape := ⟨2, ![128, 64]⟩
abbrev S64x64 : Shape := ⟨2, ![64, 64]⟩
abbrev S2x128 : Shape := ⟨2, ![2, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1000000 : S_.BroadcastsInDim S1000000 (![] : Fin 0 → Fin S1000000.rank)
  reducesTo_S1000000_S_d0 : S1000000.ReducesTo [0] S_
  bcast_S_S128x64 : S_.BroadcastsInDim S128x64 (![] : Fin 0 → Fin S128x64.rank)
  reducesTo_S128x64_S_d0_1 : S128x64.ReducesTo [0, 1] S_
  bcast_S_S64x64 : S_.BroadcastsInDim S64x64 (![] : Fin 0 → Fin S64x64.rank)
  reducesTo_S64x64_S_d0_1 : S64x64.ReducesTo [0, 1] S_
  bcast_S_S2x128 : S_.BroadcastsInDim S2x128 (![] : Fin 0 → Fin S2x128.rank)
  reducesTo_S2x128_S_d0_1 : S2x128.ReducesTo [0, 1] S_

variable [Facts]

def fn_part1 {F : FTy → Type} [FloatOps F] (main_arg6 : FVec F S2x128 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S2x128 .f32 := Host.absf main_arg6
  let main_cst_6 : FVec F S_ .f32 := constant S_ .f32 0x7F800000#32
  let main_v20 : FVec F S2x128 .f32 := broadcastInDim S2x128 ![] bcast_S_S2x128 main_cst_6
  let main_v21 : IVec S2x128 1 := cmpf .olt main_v19 main_v20
  let main_c_7 : IVec S_ 1 := constantI S_ 1 1#1
  let main_v22 : IVec S_ 1 := (fun x v => Host.reduce IntOp.andi x v reducesTo_S2x128_S_d0_1 h_S_) main_v21 main_c_7
  let main_v23 : IVec S_ 1 := andi main_v18 main_v22
  main_v23

def fn {F : FTy → Type} [FloatOps F] (main_arg0 : FVec F S100000x128 .f32) (main_arg1 : IVec S2x1000000 32) (main_arg2 : FVec F S1000000 .f32) (main_arg3 : IVec S2x500000 32) (main_arg4 : FVec F S128x64 .f32) (main_arg5 : FVec F S64x64 .f32) (main_arg6 : FVec F S2x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1000000 .f32 := Host.absf main_arg2
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_v13 main_v16
-- ==== Kernel.lean ====
abbrev S100000x128 : Shape := ⟨2, ![100000, 128]⟩
abbrev S2x1000000 : Shape := ⟨2, ![2, 1000000]⟩
abbrev S1000000 : Shape := ⟨1, ![1000000]⟩
abbrev S2x500000 : Shape := ⟨2, ![2, 500000]⟩
abbrev S128x64 : Shape := ⟨2, ![128, 64]⟩
abbrev S64x64 : Shape := ⟨2, ![64, 64]⟩
abbrev S2x128 : Shape := ⟨2, ![2, 128]⟩
abbrev S1x1000000 : Shape := ⟨2, ![1, 1000000]⟩
abbrev S1x500000 : Shape := ⟨2, ![1, 500000]⟩
abbrev S500000 : Shape := ⟨1, ![500000]⟩
abbrev S100000x64 : Shape := ⟨2, ![100000, 64]⟩
abbrev S_ : Shape := ⟨0, ![]⟩
abbrev S1000000x1 : Shape := ⟨2, ![1000000, 1]⟩
abbrev S1000000x64 : Shape := ⟨2, ![1000000, 64]⟩
abbrev S2x64 : Shape := ⟨2, ![2, 64]⟩
abbrev S64x2 : Shape := ⟨2, ![64, 2]⟩
abbrev S64x4 : Shape := ⟨2, ![64, 4]⟩
abbrev S100000x4 : Shape := ⟨2, ![100000, 4]⟩
abbrev S500000x1 : Shape := ⟨2, ![500000, 1]⟩
abbrev S500000x2 : Shape := ⟨2, ![500000, 2]⟩
abbrev S10000x128 : Shape := ⟨2, ![10000, 128]⟩
abbrev S10000x64 : Shape := ⟨2, ![10000, 64]⟩
abbrev S10000x4 : Shape := ⟨2, ![10000, 4]⟩

abbrev nBuf : Space → Nat
  | .hbm => 80
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S1000000, .f32⟩
  | .hbm, ⟨3, _⟩ => ⟨S2x500000, .i32⟩
  | .hbm, ⟨4, _⟩ => ⟨S128x64, .f32⟩
  | .hbm, ⟨5, _⟩ => ⟨S64x64, .f32⟩
  | .hbm, ⟨6, _⟩ => ⟨S2x128, .f32⟩
  | .hbm, ⟨7, _⟩ => ⟨S1x1000000, .i32⟩
  | .hbm, ⟨8, _⟩ => ⟨S1000000, .i32⟩
  | .hbm, ⟨9, _⟩ => ⟨S1x1000000, .i32⟩
  | .hbm, ⟨10, _⟩ => ⟨S1000000, .i32⟩
  | .hbm, ⟨11, _⟩ => ⟨S1x500000, .i32⟩
  | .hbm, ⟨12, _⟩ => ⟨S500000, .i32⟩
  | .hbm, ⟨13, _⟩ => ⟨S1x500000, .i32⟩
  | .hbm, ⟨14, _⟩ => ⟨S500000, .i32⟩
  | .hbm, ⟨15, _⟩ => ⟨S100000x64, .f32⟩
  | .hbm, ⟨16, _⟩ => ⟨S_, .i32⟩
  | .hbm, ⟨17, _⟩ => ⟨S1000000, .i32⟩
  | .hbm, ⟨18, _⟩ => ⟨S1000000, .i1⟩
  | .hbm, ⟨19, _⟩ => ⟨S_, .i32⟩
  | .hbm, ⟨20, _⟩ => ⟨S1000000, .i32⟩
  | .hbm, ⟨21, _⟩ => ⟨S1000000, .i32⟩
  | .hbm, ⟨22, _⟩ => ⟨S1000000, .i32⟩
  | .hbm, ⟨23, _⟩ => ⟨S1000000x1, .i32⟩
  | .hbm, ⟨24, _⟩ => ⟨S1000000x64, .f32⟩
  | .hbm, ⟨25, _⟩ => ⟨S1000000x1, .f32⟩
  | .hbm, ⟨26, _⟩ => ⟨S1000000x64, .f32⟩
  | .hbm, ⟨27, _⟩ => ⟨S1000000x64, .f32⟩
  | .hbm, ⟨28, _⟩ => ⟨S_, .f32⟩
  | .hbm, ⟨29, _⟩ => ⟨S100000x64, .f32⟩
  | .hbm, ⟨30, _⟩ => ⟨S1000000x1, .i32⟩
  | .hbm, ⟨31, _⟩ => ⟨S100000x64, .f32⟩
  | .hbm, ⟨32, _⟩ => ⟨S100000x64, .f32⟩
  | .hbm, ⟨33, _⟩ => ⟨S_, .i32⟩
  | .hbm, ⟨34, _⟩ => ⟨S1000000, .i32⟩
  | .hbm, ⟨35, _⟩ => ⟨S1000000, .i1⟩
  | .hbm, ⟨36, _⟩ => ⟨S_, .i32⟩
  | .hbm, ⟨37, _⟩ => ⟨S1000000, .i32⟩
  | .hbm, ⟨38, _⟩ => ⟨S1000000, .i32⟩
  | .hbm, ⟨39, _⟩ => ⟨S1000000, .i32⟩
  | .hbm, ⟨40, _⟩ => ⟨S1000000x1, .i32⟩
  | .hbm, ⟨41, _⟩ => ⟨S1000000x64, .f32⟩
  | .hbm, ⟨42, _⟩ => ⟨S1000000x1, .f32⟩
  | .hbm, ⟨43, _⟩ => ⟨S1000000x64, .f32⟩
  | .hbm, ⟨44, _⟩ => ⟨S1000000x64, .f32⟩
  | .hbm, ⟨45, _⟩ => ⟨S_, .f32⟩
  | .hbm, ⟨46, _⟩ => ⟨S100000x64, .f32⟩
  | .hbm, ⟨47, _⟩ => ⟨S1000000x1, .i32⟩
  | .hbm, ⟨48, _⟩ => ⟨S100000x64, .f32⟩
  | .hbm, ⟨49, _⟩ => ⟨S2x64, .f32⟩
  | .hbm, ⟨50, _⟩ => ⟨S64x2, .f32⟩
  | .hbm, ⟨51, _⟩ => ⟨S2x64, .f32⟩
  | .hbm, ⟨52, _⟩ => ⟨S64x2, .f32⟩
  | .hbm, ⟨53, _⟩ => ⟨S64x4, .f32⟩
  | .hbm, ⟨54, _⟩ => ⟨S100000x4, .f32⟩
  | .hbm, ⟨55, _⟩ => ⟨S_, .i32⟩
  | .hbm, ⟨56, _⟩ => ⟨S500000, .i32⟩
  | .hbm, ⟨57, _⟩ => ⟨S500000, .i1⟩
  | .hbm, ⟨58, _⟩ => ⟨S_, .i32⟩
  | .hbm, ⟨59, _⟩ => ⟨S500000, .i32⟩
  | .hbm, ⟨60, _⟩ => ⟨S500000, .i32⟩
  | .hbm, ⟨61, _⟩ => ⟨S500000, .i32⟩
  | .hbm, ⟨62, _⟩ => ⟨S500000x1, .i32⟩
  | .hbm, ⟨63, _⟩ => ⟨S_, .i32⟩
  | .hbm, ⟨64, _⟩ => ⟨S500000x1, .i32⟩
  | .hbm, ⟨65, _⟩ => ⟨S500000x2, .i32⟩
  | .hbm, ⟨66, _⟩ => ⟨S500000x2, .f32⟩
  | .hbm, ⟨67, _⟩ => ⟨S_, .i32⟩
  | .hbm, ⟨68, _⟩ => ⟨S500000, .i32⟩
  | .hbm, ⟨69, _⟩ => ⟨S500000, .i1⟩
  | .hbm, ⟨70, _⟩ => ⟨S_, .i32⟩
  | .hbm, ⟨71, _⟩ => ⟨S500000, .i32⟩
  | .hbm, ⟨72, _⟩ => ⟨S500000, .i32⟩
  | .hbm, ⟨73, _⟩ => ⟨S500000, .i32⟩
  | .hbm, ⟨74, _⟩ => ⟨S500000x1, .i32⟩
  | .hbm, ⟨75, _⟩ => ⟨S_, .i32⟩
  | .hbm, ⟨76, _⟩ => ⟨S500000x1, .i32⟩
  | .hbm, ⟨77, _⟩ => ⟨S500000x2, .i32⟩
  | .hbm, ⟨78, _⟩ => ⟨S500000x2, .f32⟩
  | .hbm, ⟨79, _⟩ => ⟨S500000x2, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x4, .f32⟩
  | .local _ .vmem, ⟨13, _⟩ => ⟨S10000x4, .f32⟩
  | .local _ .vmem, ⟨14, _⟩ => ⟨S10000x4, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_c_0 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_v15 : Ref sig .tc := ⟨.hbm, 24, rfl⟩
abbrev main_call0_v16 : Ref sig .tc := ⟨.hbm, 25, rfl⟩
abbrev main_call0_v17 : Ref sig .tc := ⟨.hbm, 26, rfl⟩
abbrev main_call0_v18 : Ref sig .tc := ⟨.hbm, 27, rfl⟩
abbrev main_call0_cst : Ref sig .tc := ⟨.hbm, 28, rfl⟩
abbrev main_call0_v19 : Ref sig .tc := ⟨.hbm, 29, rfl⟩
abbrev main_call0_v20 : Ref sig .tc := ⟨.hbm, 30, rfl⟩
abbrev main_call0_v21 : Ref sig .tc := ⟨.hbm, 31, rfl⟩
abbrev main_call0_v22 : Ref sig .tc := ⟨.hbm, 32, rfl⟩
abbrev main_call0_c_1 : Ref sig .tc := ⟨.hbm, 33, rfl⟩
abbrev main_call0_v23 : Ref sig .tc := ⟨.hbm, 34, rfl⟩
abbrev main_call0_v24 : Ref sig .tc := ⟨.hbm, 35, rfl⟩
abbrev main_call0_c_2 : Ref sig .tc := ⟨.hbm, 36, rfl⟩
abbrev main_call0_v25 : Ref sig .tc := ⟨.hbm, 37, rfl⟩
abbrev main_call0_v26 : Ref sig .tc := ⟨.hbm, 38, rfl⟩
abbrev main_call0_v27 : Ref sig .tc := ⟨.hbm, 39, rfl⟩
abbrev main_call0_v28 : Ref sig .tc := ⟨.hbm, 40, rfl⟩
abbrev main_call0_v29 : Ref sig .tc := ⟨.hbm, 41, rfl⟩
abbrev main_call0_v30 : Ref sig .tc := ⟨.hbm, 42, rfl⟩
abbrev main_call0_v31 : Ref sig .tc := ⟨.hbm, 43, rfl⟩
abbrev main_call0_v32 : Ref sig .tc := ⟨.hbm, 44, rfl⟩
abbrev main_call0_cst_3 : Ref sig .tc := ⟨.hbm, 45, rfl⟩
abbrev main_call0_v33 : Ref sig .tc := ⟨.hbm, 46, rfl⟩
abbrev main_call0_v34 : Ref sig .tc := ⟨.hbm, 47, rfl⟩
abbrev main_call0_v35 : Ref sig .tc := ⟨.hbm, 48, rfl⟩
abbrev main_call0_v36 : Ref sig .tc := ⟨.hbm, 49, rfl⟩
abbrev main_call0_v37 : Ref sig .tc := ⟨.hbm, 50, rfl⟩
abbrev main_call0_v38 : Ref sig .tc := ⟨.hbm, 51, rfl⟩
abbrev main_call0_v39 : Ref sig .tc := ⟨.hbm, 52, rfl⟩
abbrev main_call0_v40 : Ref sig .tc := ⟨.hbm, 53, rfl⟩
abbrev main_call0_v41 : Ref sig .tc := ⟨.hbm, 54, rfl⟩
abbrev main_call0_c_4 : Ref sig .tc := ⟨.hbm, 55, rfl⟩
abbrev main_call0_v42 : Ref sig .tc := ⟨.hbm, 56, rfl⟩
abbrev main_call0_v43 : Ref sig .tc := ⟨.hbm, 57, rfl⟩
abbrev main_call0_c_5 : Ref sig .tc := ⟨.hbm, 58, rfl⟩
abbrev main_call0_v44 : Ref sig .tc := ⟨.hbm, 59, rfl⟩
abbrev main_call0_v45 : Ref sig .tc := ⟨.hbm, 60, rfl⟩
abbrev main_call0_v46 : Ref sig .tc := ⟨.hbm, 61, rfl⟩
abbrev main_call0_v47 : Ref sig .tc := ⟨.hbm, 62, rfl⟩
abbrev main_call0_c_6 : Ref sig .tc := ⟨.hbm, 63, rfl⟩
abbrev main_call0_v48 : Ref sig .tc := ⟨.hbm, 64, rfl⟩
abbrev main_call0_v49 : Ref sig .tc := ⟨.hbm, 65, rfl⟩
abbrev main_call0_v50 : Ref sig .tc := ⟨.hbm, 66, rfl⟩
abbrev main_call0_c_7 : Ref sig .tc := ⟨.hbm, 67, rfl⟩
abbrev main_call0_v51 : Ref sig .tc := ⟨.hbm, 68, rfl⟩
abbrev main_call0_v52 : Ref sig .tc := ⟨.hbm, 69, rfl⟩
abbrev main_call0_c_8 : Ref sig .tc := ⟨.hbm, 70, rfl⟩
abbrev main_call0_v53 : Ref sig .tc := ⟨.hbm, 71, rfl⟩
abbrev main_call0_v54 : Ref sig .tc := ⟨.hbm, 72, rfl⟩
abbrev main_call0_v55 : Ref sig .tc := ⟨.hbm, 73, rfl⟩
abbrev main_call0_v56 : Ref sig .tc := ⟨.hbm, 74, rfl⟩
abbrev main_call0_c_9 : Ref sig .tc := ⟨.hbm, 75, rfl⟩
abbrev main_call0_v57 : Ref sig .tc := ⟨.hbm, 76, rfl⟩
abbrev main_call0_v58 : Ref sig .tc := ⟨.hbm, 77, rfl⟩
abbrev main_call0_v59 : Ref sig .tc := ⟨.hbm, 78, rfl⟩
abbrev main_v0 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x4 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x4 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  slices_S2x128_S2x64_0_0 : S2x128.Slices ![0, 0] S2x64
  transposes_S2x64_S64x2_1_0 : S2x64.Transposes [1, 0] S64x2
  slices_S2x128_S2x64_0_64 : S2x128.Slices ![0, 64] S2x64
  concatenates_S64x2_S64x2_S64x4_d1 : Shape.Concatenates [S64x2, S64x2] S64x4 1
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  concatenates_S500000x1_S500000x1_S500000x2_d1 : Shape.Concatenates [S500000x1, S500000x1] S500000x2 1
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  inb_S64x4_S64x4_0_0 : ∀ a, (![0, 0] : Fin 2 → Nat) a + S64x4.size a ≤ S64x4.size a
  h_S64x4 : 0 < S64x4.numel
  shapeCasts_S64x4_S64x4 : S64x4.ShapeCasts S64x4
  inb_S10000x4_S10000x4_0_0 : ∀ a, (![0, 0] : Fin 2 → Nat) a + S10000x4.size a ≤ S10000x4.size a
  h_S10000x4 : 0 < S10000x4.numel
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  gather_S100000x4_S500000x2_S500000x2_1_0_n_n_01_1_12_wf : GatherDims.WF S100000x4 S500000x2 S500000x2 [1] [0] [] [0, 1] [] 1 ![1, 2]
  dot_S10000x128_S128x64_S10000x64_1_0_0_1_n_n_wf : DotDims.WF S10000x128 S128x64 S10000x64 [1] [0] [0] [1] [] []
  dot_S10000x64_S64x64_S10000x64_1_0_0_1_n_n_wf : DotDims.WF S10000x64 S64x64 S10000x64 [1] [0] [0] [1] [] []
  dot_S10000x64_S64x4_S10000x4_1_0_0_1_n_n_wf : DotDims.WF S10000x64 S64x4 S10000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x4.size a ≤ S64x4.size a
  hwx2_1 : ∀ i : grid2.Coords, EltTy.bits .f32 = 32 ∨ (Rect.block (s := S64x4) S64x4.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x4.size a ≤ S100000x4.size a
  hwx2_2 : ∀ i : grid2.Coords, EltTy.bits .f32 = 32 ∨ (Rect.block (s := S100000x4) S10000x4.size (cc2_transform_2 i) (hinb2_2 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def gather_S100000x4_S500000x2_S500000x2_1_0_n_n_01_1_12 : GatherDims S100000x4 S500000x2 S500000x2 where
  offsetDims := [1]
  collapsedSliceDims := [0]
  operandBatchingDims := []
  startIndicesBatchingDims := []
  startIndexMap := [0, 1]
  indexVectorDim := 1
  sliceSizes := ![1, 2]
  wf := gather_S100000x4_S500000x2_S500000x2_1_0_n_n_01_1_12_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x4_S10000x4_1_0_0_1_n_n : DotDims S10000x64 S64x4 S10000x4 where
  lhsContracting := [1]
  rhsContracting := [0]
  lhsNonContracting := [0]
  rhsNonContracting := [1]
  lhsBatch := []
  rhsBatch := []
  wf := dot_S10000x64_S64x4_S10000x4_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v8) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_call0_v21) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v22) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_call0_v35) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v40) S64x4.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v41) S10000x4.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1000000 : Shape := ⟨2, ![2, 1000000]⟩
abbrev S1000000 : Shape := ⟨1, ![1000000]⟩
abbrev S2x500000 : Shape := ⟨2, ![2, 500000]⟩
abbrev S128x64 : Shape := ⟨2, ![128, 64]⟩
abbrev S64x64 : Shape := ⟨2, ![64, 64]⟩
abbrev S2x128 : Shape := ⟨2, ![2, 128]⟩
abbrev S1x1000000 : Shape := ⟨2, ![1, 1000000]⟩
abbrev S100000x64 : Shape := ⟨2, ![100000, 64]⟩
abbrev S_ : Shape := ⟨0, ![]⟩
abbrev S1000000x1 : Shape := ⟨2, ![1000000, 1]⟩
abbrev S1000000x64 : Shape := ⟨2, ![1000000, 64]⟩
abbrev S1x500000 : Shape := ⟨2, ![1, 500000]⟩
abbrev S500000 : Shape := ⟨1, ![500000]⟩
abbrev S500000x1 : Shape := ⟨2, ![500000, 1]⟩
abbrev S500000x64 : Shape := ⟨2, ![500000, 64]⟩
abbrev S500000x128 : Shape := ⟨2, ![500000, 128]⟩
abbrev S128x2 : Shape := ⟨2, ![128, 2]⟩
abbrev S500000x2 : Shape := ⟨2, ![500000, 2]⟩

abbrev nBuf : Space → Nat
  | .hbm => 73
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S1000000, .f32⟩
  | .hbm, ⟨3, _⟩ => ⟨S2x500000, .i32⟩
  | .hbm, ⟨4, _⟩ => ⟨S128x64, .f32⟩
  | .hbm, ⟨5, _⟩ => ⟨S64x64, .f32⟩
  | .hbm, ⟨6, _⟩ => ⟨S2x128, .f32⟩
  | .hbm, ⟨7, _⟩ => ⟨S1x1000000, .i32⟩
  | .hbm, ⟨8, _⟩ => ⟨S1000000, .i32⟩
  | .hbm, ⟨9, _⟩ => ⟨S1x1000000, .i32⟩
  | .hbm, ⟨10, _⟩ => ⟨S1000000, .i32⟩
  | .hbm, ⟨11, _⟩ => ⟨S100000x64, .f32⟩
  | .hbm, ⟨12, _⟩ => ⟨S_, .i32⟩
  | .hbm, ⟨13, _⟩ => ⟨S1000000, .i32⟩
  | .hbm, ⟨14, _⟩ => ⟨S1000000, .i1⟩
  | .hbm, ⟨15, _⟩ => ⟨S_, .i32⟩
  | .hbm, ⟨16, _⟩ => ⟨S1000000, .i32⟩
  | .hbm, ⟨17, _⟩ => ⟨S1000000, .i32⟩
  | .hbm, ⟨18, _⟩ => ⟨S1000000, .i32⟩
  | .hbm, ⟨19, _⟩ => ⟨S1000000x1, .i32⟩
  | .hbm, ⟨20, _⟩ => ⟨S1000000x64, .f32⟩
  | .hbm, ⟨21, _⟩ => ⟨S1000000x1, .f32⟩
  | .hbm, ⟨22, _⟩ => ⟨S1000000x64, .f32⟩
  | .hbm, ⟨23, _⟩ => ⟨S1000000x64, .f32⟩
  | .hbm, ⟨24, _⟩ => ⟨S_, .f32⟩
  | .hbm, ⟨25, _⟩ => ⟨S100000x64, .f32⟩
  | .hbm, ⟨26, _⟩ => ⟨S1000000x1, .i32⟩
  | .hbm, ⟨27, _⟩ => ⟨S100000x64, .f32⟩
  | .hbm, ⟨28, _⟩ => ⟨S_, .f32⟩
  | .hbm, ⟨29, _⟩ => ⟨S100000x64, .f32⟩
  | .hbm, ⟨30, _⟩ => ⟨S100000x64, .f32⟩
  | .hbm, ⟨31, _⟩ => ⟨S100000x64, .f32⟩
  | .hbm, ⟨32, _⟩ => ⟨S_, .i32⟩
  | .hbm, ⟨33, _⟩ => ⟨S1000000, .i32⟩
  | .hbm, ⟨34, _⟩ => ⟨S1000000, .i1⟩
  | .hbm, ⟨35, _⟩ => ⟨S_, .i32⟩
  | .hbm, ⟨36, _⟩ => ⟨S1000000, .i32⟩
  | .hbm, ⟨37, _⟩ => ⟨S1000000, .i32⟩
  | .hbm, ⟨38, _⟩ => ⟨S1000000, .i32⟩
  | .hbm, ⟨39, _⟩ => ⟨S1000000x1, .i32⟩
  | .hbm, ⟨40, _⟩ => ⟨S1000000x64, .f32⟩
  | .hbm, ⟨41, _⟩ => ⟨S1000000x1, .f32⟩
  | .hbm, ⟨42, _⟩ => ⟨S1000000x64, .f32⟩
  | .hbm, ⟨43, _⟩ => ⟨S1000000x64, .f32⟩
  | .hbm, ⟨44, _⟩ => ⟨S_, .f32⟩
  | .hbm, ⟨45, _⟩ => ⟨S100000x64, .f32⟩
  | .hbm, ⟨46, _⟩ => ⟨S1000000x1, .i32⟩
  | .hbm, ⟨47, _⟩ => ⟨S100000x64, .f32⟩
  | .hbm, ⟨48, _⟩ => ⟨S1x500000, .i32⟩
  | .hbm, ⟨49, _⟩ => ⟨S500000, .i32⟩
  | .hbm, ⟨50, _⟩ => ⟨S_, .i32⟩
  | .hbm, ⟨51, _⟩ => ⟨S500000, .i32⟩
  | .hbm, ⟨52, _⟩ => ⟨S500000, .i1⟩
  | .hbm, ⟨53, _⟩ => ⟨S_, .i32⟩
  | .hbm, ⟨54, _⟩ => ⟨S500000, .i32⟩
  | .hbm, ⟨55, _⟩ => ⟨S500000, .i32⟩
  | .hbm, ⟨56, _⟩ => ⟨S500000, .i32⟩
  | .hbm, ⟨57, _⟩ => ⟨S500000x1, .i32⟩
  | .hbm, ⟨58, _⟩ => ⟨S500000x64, .f32⟩
  | .hbm, ⟨59, _⟩ => ⟨S1x500000, .i32⟩
  | .hbm, ⟨60, _⟩ => ⟨S500000, .i32⟩
  | .hbm, ⟨61, _⟩ => ⟨S_, .i32⟩
  | .hbm, ⟨62, _⟩ => ⟨S500000, .i32⟩
  | .hbm, ⟨63, _⟩ => ⟨S500000, .i1⟩
  | .hbm, ⟨64, _⟩ => ⟨S_, .i32⟩
  | .hbm, ⟨65, _⟩ => ⟨S500000, .i32⟩
  | .hbm, ⟨66, _⟩ => ⟨S500000, .i32⟩
  | .hbm, ⟨67, _⟩ => ⟨S500000, .i32⟩
  | .hbm, ⟨68, _⟩ => ⟨S500000x1, .i32⟩
  | .hbm, ⟨69, _⟩ => ⟨S500000x64, .f32⟩
  | .hbm, ⟨70, _⟩ => ⟨S500000x128, .f32⟩
  | .hbm, ⟨71, _⟩ => ⟨S128x2, .f32⟩
  | .hbm, ⟨72, _⟩ => ⟨S500000x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_cst : Ref sig .tc := ⟨.hbm, 28, rfl⟩
abbrev main_call0_v0 : Ref sig .tc := ⟨.hbm, 29, rfl⟩
abbrev main_v18 : Ref sig .tc := ⟨.hbm, 30, rfl⟩
abbrev main_v19 : Ref sig .tc := ⟨.hbm, 31, rfl⟩
abbrev main_c_1 : Ref sig .tc := ⟨.hbm, 32, rfl⟩
abbrev main_v20 : Ref sig .tc := ⟨.hbm, 33, rfl⟩
abbrev main_v21 : Ref sig .tc := ⟨.hbm, 34, rfl⟩
abbrev main_c_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_4 : Ref sig .tc := ⟨.hbm, 50, rfl⟩
abbrev main_v35 : Ref sig .tc := ⟨.hbm, 51, rfl⟩
abbrev main_v36 : Ref sig .tc := ⟨.hbm, 52, rfl⟩
abbrev main_c_5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_6 : Ref sig .tc := ⟨.hbm, 61, rfl⟩
abbrev main_v44 : Ref sig .tc := ⟨.hbm, 62, rfl⟩
abbrev main_v45 : Ref sig .tc := ⟨.hbm, 63, rfl⟩
abbrev main_c_7 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  concatenates_S500000x64_S500000x64_S500000x128_d1 : Shape.Concatenates [S500000x64, S500000x64] S500000x128 1
  transposes_S2x128_S128x2_1_0 : S2x128.Transposes [1, 0] S128x2
  dot_S100000x128_S128x64_S100000x64_1_0_0_1_n_n_wf : DotDims.WF S100000x128 S128x64 S100000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x64_S100000x64_1_0_0_1_n_n_wf : DotDims.WF S100000x64 S64x64 S100000x64 [1] [0] [0] [1] [] []
  gather_S100000x64_S500000x1_S500000x64_1_0_n_n_0_1_164_wf : GatherDims.WF S100000x64 S500000x1 S500000x64 [1] [0] [] [0] [] 1 ![1, 64]
  dot_S500000x128_S128x2_S500000x2_1_0_0_1_n_n_wf : DotDims.WF S500000x128 S128x2 S500000x2 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def dot_S500000x128_S128x2_S500000x2_1_0_0_1_n_n : DotDims S500000x128 S128x2 S500000x2 where
  lhsContracting := [1]
  rhsContracting := [0]
  lhsNonContracting := [0]
  rhsNonContracting := [1]
  lhsBatch := []
  rhsBatch := []
  wf := dot_S500000x128_S128x2_S500000x2_1_0_0_1_n_n_wf

class Facts : Prop extends Facts₀ where

variable [Facts]
-- ==== Proof.KernelRun.lean ====
/-
  The idealized kernel program's run with its result named.

  The program is three pipelined regions (the three matrix products) among four stretches of host operations. Its
  generated frame walks the buffer contents from the launch memory through the seven segments: a stretch of host
  operations is the fold of its operations (`StableHlo.after`), a region leaves each of its arrays at what its
  write-backs leave and every other buffer as it was. The last boundary's contents are `Gen.W7`. Every weakly fair
  execution terminates with EVERY unscoped buffer at `Gen.W7`; read at the result buffer and at the seven
  arguments, that is the statement below (the arguments walk back to the launch memory, `Gen.W7_main_argK`).
-/
import proofs.«129154_j2190433321526_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the seven arguments as launched. -/
theorem run_named : θ_run defs (onTc (τ := τ) (main (F := F))) ⟨m, fun _ => 0, ρ⟩ (fun r => ∀ c : Dev nD,
      r.2.mem ((c.tc : Thread nD τ).loc main_v0) = W7 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v0 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩)

end Cert.KernelIdeal.RunValue

end
-- ==== Proof.LibDotSum.lean ====
/-
  A product contracted over one axis, a bias repeated over rows, and the word for the number one, at an index.

  Three facts about arrays of extended reals read at one entry, none of which mentions a particular size. A product
  of an `M × K` by a `K × N` array contracted over the shared axis is, at `(p, q)`, the sum over `k : Fin K` of
  `A (p, k) · B (k, q)` (`sum_dot`): the contraction's index set has a single axis, so it is in bijection with that
  axis's coordinate, and the operand indices at output `(p, q)` and contraction position `k` are `(p, k)` and `(k, q)`.
  A vector of `m` column values laid out as the one row `[1, m]` and repeated over `n` rows reads, at `(p, q)`, its
  entry `q` (`bias_apply`): a repeated axis of extent one reads coordinate `0`, every other axis its own coordinate.
  The 32-bit word `0x3F800000` denotes the number one (`one_f32`). `add3` is the congruence of a sum of three terms.
-/
import Idealize.ShloMosaic.PureOps.Ideal.Laws
import Idealize.ShloMosaic.Lib.ValueIdx
import Idealize.ShloMosaic.Lib.Pipeline.Value

noncomputable section

namespace Cert.LibDotSum

open Idealize.ShloMosaic Idealize.ShloMosaic.ValueIdx

/-! ## A contraction over one axis as a sum over that axis's coordinate -/

/-- For a product of an `M × K` by a `K × N` array contracted over the shared axis, the sum over the contraction
    index set is the sum over `k : Fin K` of `A (p, k) · B (k, q)`: the contraction index is its one coordinate, and
    the operand indices at output `(p, q)` are `(p, k)` and `(k, q)` (the four hypotheses, which compute on a
    given record of dimension numbers). -/
theorem sum_dot {M K N : Nat} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (A : (⟨2, ![M, K]⟩ : Shape).Idx → EReal) (B : (⟨2, ![K, N]⟩ : Shape).Idx → EReal) (p : Fin M) (q : Fin N) :
    ∑ k : D.contr.Idx, A (D.lhsIdx (ix2 p q) k) * B (D.rhsIdx (ix2 p q) k) = ∑ k : Fin K, A (ix2 p k) * B (ix2 k q) := by
  refine Fintype.sum_equiv (contrEquiv1 D K hr hs) _ _ fun k => ?_
  have ha : D.lhsIdx (ix2 p q) k = ix2 p (contrEquiv1 D K hr hs k) := by
    funext a
    match a with
    | ⟨0, _⟩ => exact Fin.ext (hl0 _ k)
    | ⟨1, _⟩ => exact Fin.ext (hl1 _ k)
  have hb : D.rhsIdx (ix2 p q) k = ix2 (contrEquiv1 D K hr hs k) q := by
    funext a
    match a with
    | ⟨0, _⟩ => exact Fin.ext (hr0 _ k)
    | ⟨1, _⟩ => exact Fin.ext (hr1 _ k)
  rw [ha, hb]

/-- Three summands equal term by term. -/
theorem add3 {a b c a' b' c' : EReal} (h1 : a = a') (h2 : b = b') (h3 : c = c') : a + b + c = a' + b' + c' := by
  rw [h1, h2, h3]

/-! ## The word for the number one -/

/-- The word `0x3F800000` is the number one. -/
theorem one_f32 : Ideal.ofBits .f32 0x3F800000#32 = 1 := IdealRules.sign_bit.ideal_onePat .f32

/-! ## A bias repeated over rows, at an index -/

/-- A bias vector `[m]`, laid out as the one row `[1, m]` and repeated over `n` rows, reads at `(p, q)` its entry `q`. -/
theorem bias_apply {n m : Nat} {α : Type} (b : (⟨1, ![m]⟩ : Shape).Idx → α)
    (h1 : (⟨1, ![m]⟩ : Shape).BroadcastsInDim ⟨2, ![1, m]⟩ ![1])
    (h2 : (⟨2, ![1, m]⟩ : Shape).BroadcastsInDim ⟨2, ![n, m]⟩ ![0, 1]) (p : Fin n) (q : Fin m) :
    broadcastInDim ⟨2, ![n, m]⟩ ![0, 1] h2 (broadcastInDim ⟨2, ![1, m]⟩ ![1] h1 b) (ix2 p q) = b (ix1 q) := by
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if m = 1 then 0 else q.val
      split
      · have := q.isLt; omega
      · rfl
  · match a with
    | ⟨0, _⟩ =>
      show q.val = if m = 1 then 0 else q.val
      split
      · have := q.isLt; omega
      · rfl

end Cert.LibDotSum

end
-- ==== Proof.Spec.lean ====
/-
  The two dense operations of a graph-convolution layer on arrays of extended reals, index by index.

  `mm A B` is the product of an `M × K` array and a `K × N` array: at `(p, q)` the sum over `k` of `A (p, k) · B (k, q)`.
  `relu A` is the entrywise maximum with the number the zero word denotes. At the exact instance a kernel's
  `tpu.matmul` into a zero accumulator and the host's `dot_general` are both `mm`, whatever float formats the
  operands were rounded to on the way in (a change of format is the identity there): the contraction's index set has
  one axis, so its sum is the sum over that axis's coordinate (`LibDotSum.sum_dot`). The kernel's and the host's
  spellings of the clip at zero are both `relu`.
-/
import Idealize.ShloMosaic.PureOps.Ideal.Laws
import Idealize.ShloMosaic.Lib.ValueIdx
import Idealize.ShloMosaic.Lib.Pipeline.Value
import proofs.«129154_j2190433321526_2_alg».proof.Proof.LibDotSum

noncomputable section

namespace Cert.Gcn

open Idealize.ShloMosaic Idealize.ShloMosaic.ValueIdx

/-- The product of an `M × K` array and a `K × N` array. -/
def mm {M K N : Nat} (A : (⟨2, ![M, K]⟩ : Shape).Idx → EReal) (B : (⟨2, ![K, N]⟩ : Shape).Idx → EReal) :
    (⟨2, ![M, N]⟩ : Shape).Idx → EReal :=
  fun i => ∑ k : Fin K, A (ix2 (⟨(i 0).val, idx2_lt0 i⟩ : Fin M) k) * B (ix2 k (⟨(i 1).val, idx2_lt1 i⟩ : Fin N))

/-- The product at `(p, q)`. -/
theorem mm_apply {M K N : Nat} (A : (⟨2, ![M, K]⟩ : Shape).Idx → EReal) (B : (⟨2, ![K, N]⟩ : Shape).Idx → EReal)
    (p : Fin M) (q : Fin N) : mm A B (ix2 p q) = ∑ k : Fin K, A (ix2 p k) * B (ix2 k q) := rfl

/-- The entrywise maximum with zero (the number the zero word denotes). -/
def relu {s : Shape} (A : s.Idx → EReal) : s.Idx → EReal := fun i => max (A i) (Ideal.ofBits .f32 0x00000000#32)

/-- A kernel's `tpu.matmul` into the zero accumulator is the product, for operands of any float formats. -/
theorem matmul_zero_eq_mm {M K N : Nat} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (A : FVec Ideal ⟨2, ![M, K]⟩ φ₁) (B : FVec Ideal ⟨2, ![K, N]⟩ φ₂) :
    matmul (F := Ideal) D prec A B (constant (F := Ideal) ⟨2, ![M, N]⟩ .f32 0x00000000#32) = mm A B := by
  funext j
  obtain ⟨p, q, rfl⟩ : ∃ (p : Fin M) (q : Fin N), j = ix2 p q := ⟨j 0, j 1, eq_ix2 j⟩
  exact (Ideal.matmul_constant_zero_apply D prec A B (ix2 p q)).trans
    (Cert.LibDotSum.sum_dot D hr hs hl0 hl1 hr0 hr1 A B p q)

/-- The host's `dot_general` is the product, for operands of any float formats. -/
theorem dotGeneral_eq_mm {M K N : Nat} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (A : FVec Ideal ⟨2, ![M, K]⟩ φ₁) (B : FVec Ideal ⟨2, ![K, N]⟩ φ₂) :
    Host.dotGeneral (F := Ideal) D prec A B = mm A B := by
  funext j
  obtain ⟨p, q, rfl⟩ : ∃ (p : Fin M) (q : Fin N), j = ix2 p q := ⟨j 0, j 1, eq_ix2 j⟩
  exact (Ideal.dotGeneral_apply D prec .single A B (ix2 p q)).trans
    (Cert.LibDotSum.sum_dot D hr hs hl0 hl1 hr0 hr1 A B p q)

/-- The kernel's clip at zero: the maximum with the splat of the zero scalar. -/
theorem kernel_relu (s : Shape) (v : FVec Ideal s .f32) :
    maximumf (F := Ideal) v (broadcast s (Scalar.ofBits (F := Ideal) .f32 0x00000000#32)) = relu v := by
  funext i; rfl

/-- The host's clip at zero: the maximum with the rank-0 zero constant repeated over the array. -/
theorem host_relu (s : Shape) (h : (⟨0, ![]⟩ : Shape).BroadcastsInDim s ![]) (v : FVec Ideal s .f32) :
    maximumf (F := Ideal) v (broadcastInDim s ![] h (constant (F := Ideal) ⟨0, ![]⟩ .f32 0x00000000#32)) = relu v := by
  funext i; rfl

end Cert.Gcn

end
-- ==== Proof.Region0.lean ====
/-
  Region 0 of the kernel program: the first layer's product `x · W1`.

  The grid has ten points; at point `t` the body reads rows `10000·t … 10000·t + 9999` of the left array (its window's
  block at `t`) and the whole right array, and writes the same rows of the output. A row of a product depends on the same
  row of the left factor only, so what point `t` writes back is block `t` of ONE whole-array function of the arrays as
  the region finds them: `mm x W1`. The ten blocks tile the output's rows (row `r` is in block `r / 10000`), so the array
  ends holding that function everywhere.
-/
import proofs.«129154_j2190433321526_2_alg».proof.Proof.Gen.KernelIdeal.Frame
import proofs.«129154_j2190433321526_2_alg».proof.Proof.Spec
import Idealize.ShloMosaic.Lib.Pipeline.Value

set_option maxRecDepth 16384

noncomputable section

namespace Cert.KernelIdeal.Region0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The body's payload: the product of the two loaded blocks (the roundings to bf16 on the way in are the identity at the exact instance). -/
theorem pay_eq (x0 : Vec Ideal S10000x128 .f32) (x1 : Vec Ideal S128x64 .f32) :
    k0_pay1 (F := Ideal) x0 x1 = mm x0 x1 := by
  unfold k0_pay1
  exact matmul_zero_eq_mm dot_S10000x128_S128x64_S10000x64_1_0_0_1_n_n rfl rfl (fun _ _ => rfl) (fun _ _ => rfl) (fun _ _ => rfl) (fun _ _ => rfl) none _ _

/-- The printed index maps, decided over the grid: the left window and the output move together along the rows and
    stay at column block 0; the right window stays at block (0, 0). -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every row block is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-- WHAT POINT `t` WRITES BACK is block `t` of the product of the arrays as the region finds them. -/
theorem flushed_eq (c : Dev nD) (t : Fin cfg0.N) :
    (dat0 V c).flushed 2 t
      = ((cfg0.win 2).blk t).view.read (Elt Ideal) (mm (V c main_arg0) (V c main_arg4)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  rw [pay_eq]
  obtain ⟨e0, e1, e2, e3, e4, e5⟩ := idx_facts t
  funext j
  have hj0 : (j 0).val < 10000 := (j 0).isLt
  have hj1 : (j 1).val < 64 := (j 1).isLt
  show mm (iblk0 V c 0 t) (iblk0 V c 1 t) j
      = mm (V c main_arg0) (V c main_arg4) (((cfg0.win 2).blk t).view.emb j)
  simp only [mm]
  refine Finset.sum_congr rfl fun k _ => ?_
  have h0 : ((cfg0.win 0).blk t).view.emb (ix2 (⟨(j 0).val, hj0⟩ : Fin 10000) k)
      = ix2 (⟨((((cfg0.win 2).blk t).view.emb j) 0).val, idx2_lt0 _⟩ : Fin 100000) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have h1 : ((cfg0.win 1).blk t).view.emb (ix2 k (⟨(j 1).val, hj1⟩ : Fin 64))
      = ix2 k (⟨((((cfg0.win 2).blk t).view.emb j) 1).val, idx2_lt1 _⟩ : Fin 64) := by
    funext a; apply Fin.ext
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega
  refine congrArg₂ (fun a b : EReal => a * b) ?_ ?_
  · show (V c main_arg0) (((cfg0.win 0).blk t).view.emb (ix2 (⟨(j 0).val, hj0⟩ : Fin 10000) k)) = _
    exact congrArg (V c main_arg0) h0
  · show (V c main_arg4) (((cfg0.win 1).blk t).view.emb (ix2 k (⟨(j 1).val, hj1⟩ : Fin 64))) = _
    exact congrArg (V c main_arg4) h1

/-- An index of the array is in point `t`'s block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_call0_v8).slice (win0_2.rect t)).set ↔ _
  rw [View.set_slice_whole, Rect.mem_set_unit]
  exact Iff.rfl

/-- Every index of the output is in some flushing point's block: row `r` in block `r / 10000`. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- THE ARRAY after the region: the product of the arrays as the region finds them. -/
theorem final (c : Dev nD) :
    (dat0 V c).arrAt 2 cfg0.N = mm (V c main_arg0) (V c main_arg4) :=
  (dat0 V c).arrAt_eq_of_cover 2 _ (fun t _ => flushed_eq V c t) cover

end Cert.KernelIdeal.Region0

end
-- ==== Proof.Region1.lean ====
/-
  Region 1 of the kernel program: the second layer's product `relu(h) · W2`, the clip at zero applied to the left block as it is loaded.

  The grid has ten points; at point `t` the body reads rows `10000·t … 10000·t + 9999` of the left array (its window's
  block at `t`) and the whole right array, and writes the same rows of the output. A row of a product depends on the same
  row of the left factor only, so what point `t` writes back is block `t` of ONE whole-array function of the arrays as
  the region finds them: `mm (relu h) W2`. The ten blocks tile the output's rows (row `r` is in block `r / 10000`), so the array
  ends holding that function everywhere.
-/
import proofs.«129154_j2190433321526_2_alg».proof.Proof.Gen.KernelIdeal.Frame
import proofs.«129154_j2190433321526_2_alg».proof.Proof.Spec
import Idealize.ShloMosaic.Lib.Pipeline.Value

set_option maxRecDepth 16384

noncomputable section

namespace Cert.KernelIdeal.Region1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The body's payload: the product of the clipped left block with the right block (the cast to the same shape and the roundings to bf16 are the identity at the exact instance). -/
theorem pay_eq (x0 : Vec Ideal S10000x64 .f32) (x1 : Vec Ideal S64x64 .f32) :
    k1_pay1 (F := Ideal) x0 x1 = mm (relu x0) x1 := by
  unfold k1_pay1
  try dsimp only
  rw [shapeCast_self]
  exact matmul_zero_eq_mm dot_S10000x64_S64x64_S10000x64_1_0_0_1_n_n rfl rfl (fun _ _ => rfl) (fun _ _ => rfl) (fun _ _ => rfl) (fun _ _ => rfl) none _ _

/-- The printed index maps, decided over the grid: the left window and the output move together along the rows and
    stay at column block 0; the right window stays at block (0, 0). -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Every row block is some point's. -/
theorem idx_onto : ∀ q0 : Fin 10, ∃ t : Fin cfg1.N, win1_2.index t = ![q0.val, 0] :=
  (by decide +kernel : ∀ q0 : Fin 10, ∃ t : Fin grid1.N, win1_2.index t = ![q0.val, 0])

/-- WHAT POINT `t` WRITES BACK is block `t` of the product of the arrays as the region finds them. -/
theorem flushed_eq (c : Dev nD) (t : Fin cfg1.N) :
    (dat1 V c).flushed 2 t
      = ((cfg1.win 2).blk t).view.read (Elt Ideal) (mm (relu (V c main_call0_v21)) (V c main_arg5)) := by
  show (cfg1.win 2).cut (grid1.coords t) ((dat1 V c).after 2 t) = _
  rw [after1_2]
  unfold out1_2
  rw [View.canon_unit_zero hz]
  simp only [View.ld_unit_zero (S := S10000x64) hz, View.ld_unit_zero (S := S64x64) hz]
  rw [pay_eq]
  obtain ⟨e0, e1, e2, e3, e4, e5⟩ := idx_facts t
  funext j
  have hj0 : (j 0).val < 10000 := (j 0).isLt
  have hj1 : (j 1).val < 64 := (j 1).isLt
  show mm (relu (iblk1 V c 0 t)) (iblk1 V c 1 t) j
      = mm (relu (V c main_call0_v21)) (V c main_arg5) (((cfg1.win 2).blk t).view.emb j)
  simp only [mm]
  refine Finset.sum_congr rfl fun k _ => ?_
  have h0 : ((cfg1.win 0).blk t).view.emb (ix2 (⟨(j 0).val, hj0⟩ : Fin 10000) k)
      = ix2 (⟨((((cfg1.win 2).blk t).view.emb j) 0).val, idx2_lt0 _⟩ : Fin 100000) k := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * k.val = k.val; omega
  have h1 : ((cfg1.win 1).blk t).view.emb (ix2 k (⟨(j 1).val, hj1⟩ : Fin 64))
      = ix2 k (⟨((((cfg1.win 2).blk t).view.emb j) 1).val, idx2_lt1 _⟩ : Fin 64) := by
    funext a; apply Fin.ext
    match a with
    | ⟨0, _⟩ => show win1_1.index t (0 : Fin 2) * 64 + 1 * k.val = k.val; omega
    | ⟨1, _⟩ => show win1_1.index t (1 : Fin 2) * 64 + 1 * (j 1).val = win1_2.index t (1 : Fin 2) * 64 + 1 * (j 1).val; omega
  refine congrArg₂ (fun a b : EReal => a * b) ?_ ?_
  · show (relu (V c main_call0_v21)) (((cfg1.win 0).blk t).view.emb (ix2 (⟨(j 0).val, hj0⟩ : Fin 10000) k)) = _
    exact congrArg (relu (V c main_call0_v21)) h0
  · show (V c main_arg5) (((cfg1.win 1).blk t).view.emb (ix2 k (⟨(j 1).val, hj1⟩ : Fin 64))) = _
    exact congrArg (V c main_arg5) h1

/-- An index of the array is in point `t`'s block iff each coordinate is in the block's range on its axis. -/
theorem mem_blk (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_call0_v22).slice (win1_2.rect t)).set ↔ _
  rw [View.set_slice_whole, Rect.mem_set_unit]
  exact Iff.rfl

/-- Every index of the output is in some flushing point's block: row `r` in block `r / 10000`. -/
theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := idx_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- THE ARRAY after the region: the product of the arrays as the region finds them. -/
theorem final (c : Dev nD) :
    (dat1 V c).arrAt 2 cfg1.N = mm (relu (V c main_call0_v21)) (V c main_arg5) :=
  (dat1 V c).arrAt_eq_of_cover 2 _ (fun t _ => flushed_eq V c t) cover

end Cert.KernelIdeal.Region1

end
-- ==== Proof.Region2.lean ====
/-
  Region 2 of the kernel program: the decode's product `z · Wcat`.

  The grid has ten points; at point `t` the body reads rows `10000·t … 10000·t + 9999` of the left array (its window's
  block at `t`) and the whole right array, and writes the same rows of the output. A row of a product depends on the same
  row of the left factor only, so what point `t` writes back is block `t` of ONE whole-array function of the arrays as
  the region finds them: `mm z Wcat`. The ten blocks tile the output's rows (row `r` is in block `r / 10000`), so the array
  ends holding that function everywhere.
-/
import proofs.«129154_j2190433321526_2_alg».proof.Proof.Gen.KernelIdeal.Frame
import proofs.«129154_j2190433321526_2_alg».proof.Proof.Spec
import Idealize.ShloMosaic.Lib.Pipeline.Value

set_option maxRecDepth 16384

noncomputable section

namespace Cert.KernelIdeal.Region2

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The body's payload: the product of the two loaded blocks (the casts to the same shape and the roundings to bf16 are the identity at the exact instance). -/
theorem pay_eq (x0 : Vec Ideal S10000x64 .f32) (x1 : Vec Ideal S64x4 .f32) :
    k2_pay1 (F := Ideal) x0 x1 = mm x0 x1 := by
  unfold k2_pay1
  try dsimp only
  rw [shapeCast_self, shapeCast_self]
  exact matmul_zero_eq_mm dot_S10000x64_S64x4_S10000x4_1_0_0_1_n_n rfl rfl (fun _ _ => rfl) (fun _ _ => rfl) (fun _ _ => rfl) (fun _ _ => rfl) none _ _

/-- The printed index maps, decided over the grid: the left window and the output move together along the rows and
    stay at column block 0; the right window stays at block (0, 0). -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 9 :=
  (by decide +kernel : ∀ t : Fin grid2.N, _)

/-- Every row block is some point's. -/
theorem idx_onto : ∀ q0 : Fin 10, ∃ t : Fin cfg2.N, win2_2.index t = ![q0.val, 0] :=
  (by decide +kernel : ∀ q0 : Fin 10, ∃ t : Fin grid2.N, win2_2.index t = ![q0.val, 0])

/-- WHAT POINT `t` WRITES BACK is block `t` of the product of the arrays as the region finds them. -/
theorem flushed_eq (c : Dev nD) (t : Fin cfg2.N) :
    (dat2 V c).flushed 2 t
      = ((cfg2.win 2).blk t).view.read (Elt Ideal) (mm (V c main_call0_v35) (V c main_call0_v40)) := by
  show (cfg2.win 2).cut (grid2.coords t) ((dat2 V c).after 2 t) = _
  rw [after2_2]
  unfold out2_2
  rw [View.canon_unit_zero hz]
  simp only [View.ld_unit_zero (S := S10000x64) hz, View.ld_unit_zero (S := S64x4) hz]
  rw [pay_eq]
  obtain ⟨e0, e1, e2, e3, e4, e5⟩ := idx_facts t
  funext j
  have hj0 : (j 0).val < 10000 := (j 0).isLt
  have hj1 : (j 1).val < 4 := (j 1).isLt
  show mm (iblk2 V c 0 t) (iblk2 V c 1 t) j
      = mm (V c main_call0_v35) (V c main_call0_v40) (((cfg2.win 2).blk t).view.emb j)
  simp only [mm]
  refine Finset.sum_congr rfl fun k _ => ?_
  have h0 : ((cfg2.win 0).blk t).view.emb (ix2 (⟨(j 0).val, hj0⟩ : Fin 10000) k)
      = ix2 (⟨((((cfg2.win 2).blk t).view.emb j) 0).val, idx2_lt0 _⟩ : Fin 100000) k := by
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 64 + 1 * k.val = k.val; omega
  have h1 : ((cfg2.win 1).blk t).view.emb (ix2 k (⟨(j 1).val, hj1⟩ : Fin 4))
      = ix2 k (⟨((((cfg2.win 2).blk t).view.emb j) 1).val, idx2_lt1 _⟩ : Fin 4) := by
    funext a; apply Fin.ext
    match a with
    | ⟨0, _⟩ => show win2_1.index t (0 : Fin 2) * 64 + 1 * k.val = k.val; omega
    | ⟨1, _⟩ => show win2_1.index t (1 : Fin 2) * 4 + 1 * (j 1).val = win2_2.index t (1 : Fin 2) * 4 + 1 * (j 1).val; omega
  refine congrArg₂ (fun a b : EReal => a * b) ?_ ?_
  · show (V c main_call0_v35) (((cfg2.win 0).blk t).view.emb (ix2 (⟨(j 0).val, hj0⟩ : Fin 10000) k)) = _
    exact congrArg (V c main_call0_v35) h0
  · show (V c main_call0_v40) (((cfg2.win 1).blk t).view.emb (ix2 k (⟨(j 1).val, hj1⟩ : Fin 4))) = _
    exact congrArg (V c main_call0_v40) h1

/-- An index of the array is in point `t`'s block iff each coordinate is in the block's range on its axis. -/
theorem mem_blk (t : Fin cfg2.N) (i : S100000x4.Idx) :
    i ∈ ((cfg2.win 2).blk t).view.set ↔ ∀ a : Fin 2, win2_2.index t a * S10000x4.size a ≤ (i a).val ∧ (i a).val < win2_2.index t a * S10000x4.size a + S10000x4.size a := by
  show i ∈ ((View.whole main_call0_v41).slice (win2_2.rect t)).set ↔ _
  rw [View.set_slice_whole, Rect.mem_set_unit]
  exact Iff.rfl

/-- Every index of the output is in some flushing point's block: row `r` in block `r / 10000`. -/
theorem cover (i : S100000x4.Idx) : ∃ t : Fin cfg2.N, (cfg2.win 2).flush t = true ∧ i ∈ ((cfg2.win 2).blk t).view.set := by
  have hi0 : (i 0).val < 100000 := (i 0).isLt
  have hi1 : (i 1).val < 4 := (i 1).isLt
  obtain ⟨t, ht⟩ := idx_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 4 ≤ (i 1).val ∧ (i 1).val < win2_2.index t (1 : Fin 2) * 4 + 4; omega

/-- THE ARRAY after the region: the product of the arrays as the region finds them. -/
theorem final (c : Dev nD) :
    (dat2 V c).arrAt 2 cfg2.N = mm (V c main_call0_v35) (V c main_call0_v40) :=
  (dat2 V c).arrAt_eq_of_cover 2 _ (fun t _ => flushed_eq V c t) cover

end Cert.KernelIdeal.Region2

end
-- ==== Proof.LibSumGroups.lean ====
/-
  A finite sum over consecutive groups of indices.

  In any additive commutative monoid, a sum over the `a + b` indices `0, …, a + b − 1` is the sum over the first `a` of
  them plus the sum over the last `b` (`sum_fin_add`): the index set `Fin c` with `c = a + b` is named by the plain
  numbers below `c`, so the statement applies to a literal `c` (549 = 384 + 165) without any cast between index types.
  Applied repeatedly it splits a contraction over the columns of several arrays joined side by side into one
  contraction per array. Only associativity and commutativity of addition are used, so it holds for extended reals,
  infinities included.
-/
import Mathlib.Algebra.BigOperators.Fin

namespace Cert.LibSumGroups

/-- A sum over `a + b = c` consecutive indices is the sum over the first `a` plus the sum over the last `b`. -/
theorem sum_fin_add {M : Type*} [AddCommMonoid M] (a b c : ℕ) (h : a + b = c) (f : Fin c → M) :
    ∑ k : Fin c, f k = ∑ k : Fin a, f ⟨k.val, by omega⟩ + ∑ k : Fin b, f ⟨a + k.val, by omega⟩ := by
  subst h
  exact Fin.sum_univ_add f

end Cert.LibSumGroups
-- ==== Proof.LibScatterGather.lean ====
/-
  THE HOST'S ACCUMULATING SCATTER AND ITS ROW GATHER, READ AT ONE INDEX, for every size of the arrays.

  Two index patterns, each for a matrix of rows and for a flat array:

  * SCATTER-ADD OF ROWS. An operand `x : [N, C]`, a column of start words `idx : [M, 1]` and updates `upd : [M, C]`;
    update row `e` is added onto operand row `idx[e, 0]`, the word read as a SIGNED integer and NOT clamped: a start
    outside `[0, N)` drops the row. At the extended reals the result at `(v, f)` is therefore
        x (v, f) + Σ_{e : idx[e,0] = v} upd (e, f),
    the sum over exactly those `e` whose start word, read signed, is `v` (`scatterAdd_rows_apply`). The flat form, an
    operand `[N]` with updates `[M]`, is the same statement without the column coordinate (`scatterAdd_flat_apply`).
  * GATHER OF ROWS. An operand `x : [N, C]` and the same column of start words; result row `e` is operand row
    `idx[e, 0]`, the word read signed and CLAMPED into `[0, N − 1]` (`gather_rows_apply`); the flat form reads one
    element (`gather_flat_apply`).

  The proofs evaluate the dimension numbers' coordinate maps — which operand axis reads which update or result axis —
  once, for symbolic sizes: only the ranks, which are literals, decide them. For the scatter the set of update indices
  landing on `(v, f)` is then `{(e, f) | idx[e,0] = v}`, and the sum over it is re-indexed along `e ↦ (e, f)`.
-/
import Idealize.ShloMosaic.PureOps.Ideal
import Idealize.ShloMosaic.Lib.ValueIdx

noncomputable section

open scoped BigOperators

namespace Cert.Lib.ScatterGather

open Idealize.ShloMosaic Idealize.ShloMosaic.ValueIdx

/-! ## Scatter-add of rows: operand `[N, C]`, start words `[M, 1]`, updates `[M, C]` -/

/-- The dimension numbers of a row scatter: update axis 1 is the window axis and goes to operand axis 1; operand axis 0
    is inserted and receives the start index, whose single component is read along axis 1 of the start words. Their
    conditions `wf` are decided on literal sizes. -/
abbrev rowScatterDims (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

section Rows
variable {N M C w : Nat} (wf : ScatterDims.WF ⟨2, ![N, C]⟩ ⟨2, ![M, 1]⟩ ⟨2, ![M, C]⟩ [1] [0] [0] 1)

/-- On operand axis 0 the window of update `(e, g)` starts at the start word of row `e`, read signed. -/
theorem rows_start0 (idx : IVec ⟨2, ![M, 1]⟩ w) (e : Fin M) (g : Fin C) :
    (rowScatterDims N M C wf).start (ix2 e g) idx 0 = (idx (ix2 e (0 : Fin 1))).toInt := by
  unfold ScatterDims.start
  rw [dif_pos (show (0 : Fin 2) ∈ (rowScatterDims N M C wf).scatterDimsToOperandDims from List.mem_singleton.mpr rfl)]
  have hsi : (rowScatterDims N M C wf).siIdx (ix2 e g) ⟨List.idxOf (0 : Fin 2) (rowScatterDims N M C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On operand axis 1, which the start index does not name, every window starts at `0`. -/
theorem rows_start1 (idx : IVec ⟨2, ![M, 1]⟩ w) (j : (⟨2, ![M, C]⟩ : Shape).Idx) :
    (rowScatterDims N M C wf).start j idx 1 = 0 := rfl

/-- Operand axis 0 is inserted: the window coordinate there is `0`. -/
theorem rows_window0 (j : (⟨2, ![M, C]⟩ : Shape).Idx) : (rowScatterDims N M C wf).window j 0 = 0 := rfl

/-- On operand axis 1 the window coordinate is the update's column. -/
theorem rows_window1 (j : (⟨2, ![M, C]⟩ : Shape).Idx) : (rowScatterDims N M C wf).window j 1 = (j 1).val := rfl

/-- WHERE AN UPDATE LANDS: update `(e, g)` lands on `(v, f)` exactly when the start word of row `e`, read signed, is `v`
    and `g = f`; a start word outside `[0, N)` lands nowhere. -/
theorem rows_resultIdx?_eq_some_iff (idx : IVec ⟨2, ![M, 1]⟩ w) (e : Fin M) (g : Fin C) (v : Fin N) (f : Fin C) :
    (rowScatterDims N M C wf).resultIdx? (ix2 e g) idx = some (ix2 v f)
      ↔ (idx (ix2 e (0 : Fin 1))).toInt = (v.val : ℤ) ∧ g = f := by
  have hs0 := rows_start0 wf idx e g
  have hs1 := rows_start1 wf idx (ix2 e g)
  have hw0 := rows_window0 wf (ix2 e g)
  have hw1 := rows_window1 wf (ix2 e g)
  have hg : ((ix2 e g : (⟨2, ![M, C]⟩ : Shape).Idx) 1).val = g.val := rfl
  have hvN : v.val < N := v.isLt
  have hgC : g.val < C := g.isLt
  have hsz0 : (⟨2, ![N, C]⟩ : Shape).size 0 = N := rfl
  have hsz1 : (⟨2, ![N, C]⟩ : Shape).size 1 = C := rfl
  unfold ScatterDims.resultIdx?
  split
  · rename_i h
    rw [Option.some.injEq]
    constructor
    · intro hfun
      have h0 := congrArg Fin.val (congrFun hfun 0)
      have h1 := congrArg Fin.val (congrFun hfun 1)
      have hv0 : ((ix2 v f : (⟨2, ![N, C]⟩ : Shape).Idx) 0).val = v.val := rfl
      have hf1 : ((ix2 v f : (⟨2, ![N, C]⟩ : Shape).Idx) 1).val = f.val := rfl
      simp only [hs0, hs1, hw0, hw1, hg, hv0, hf1] at h0 h1
      have hh := (h 0).1
      simp only [hs0, hw0] at hh
      refine ⟨by omega, Fin.ext (by omega)⟩
    · rintro ⟨ht, rfl⟩
      funext a
      refine Fin.ext ?_
      match a with
      | ⟨0, _⟩ =>
        show ((rowScatterDims N M C wf).start (ix2 e g) idx 0 + ((rowScatterDims N M C wf).window (ix2 e g) 0 : ℕ)).toNat = v.val
        rw [hs0, hw0, ht]; simp
      | ⟨1, _⟩ =>
        show ((rowScatterDims N M C wf).start (ix2 e g) idx 1 + ((rowScatterDims N M C wf).window (ix2 e g) 1 : ℕ)).toNat = g.val
        rw [hs1, hw1, hg]; simp
  · rename_i h
    constructor
    · intro hc; exact absurd hc (by simp)
    · rintro ⟨ht, rfl⟩
      exfalso; apply h
      intro a
      match a with
      | ⟨0, _⟩ =>
        show 0 ≤ (rowScatterDims N M C wf).start (ix2 e g) idx 0 + ((rowScatterDims N M C wf).window (ix2 e g) 0 : ℕ) ∧
          (rowScatterDims N M C wf).start (ix2 e g) idx 0 + ((rowScatterDims N M C wf).window (ix2 e g) 0 : ℕ) < ((⟨2, ![N, C]⟩ : Shape).size 0 : ℕ)
        rw [hs0, hw0, ht, hsz0]; omega
      | ⟨1, _⟩ =>
        show 0 ≤ (rowScatterDims N M C wf).start (ix2 e g) idx 1 + ((rowScatterDims N M C wf).window (ix2 e g) 1 : ℕ) ∧
          (rowScatterDims N M C wf).start (ix2 e g) idx 1 + ((rowScatterDims N M C wf).window (ix2 e g) 1 : ℕ) < ((⟨2, ![N, C]⟩ : Shape).size 1 : ℕ)
        rw [hs1, hw1, hg, hsz1]; omega

/-- THE ROW SCATTER-ADD READ AT `(v, f)`: the operand there plus the sum of `upd (e, f)` over the rows `e` whose start
    word, read signed, is `v`. -/
theorem scatterAdd_rows_apply {φ : FTy} (x : FVec Ideal ⟨2, ![N, C]⟩ φ) (idx : IVec ⟨2, ![M, 1]⟩ w)
    (upd : FVec Ideal ⟨2, ![M, C]⟩ φ) (v : Fin N) (f : Fin C) :
    Host.scatterAdd (rowScatterDims N M C wf) x idx upd (ix2 v f)
      = x (ix2 v f) + ∑ e ∈ Finset.univ.filter (fun e : Fin M => (idx (ix2 e (0 : Fin 1))).toInt = (v.val : ℤ)),
          upd (ix2 e f) := by
  show x (ix2 v f) + ∑ j ∈ Finset.univ.filter (fun j => (rowScatterDims N M C wf).resultIdx? j idx = some (ix2 v f)), upd j = _
  congr 1
  refine Finset.sum_nbij' (fun j => j 0) (fun e => ix2 e f) ?_ ?_ ?_ ?_ ?_
  · intro j hj
    obtain ⟨e, g, rfl⟩ : ∃ e g, j = ix2 e g := ⟨j 0, j 1, eq_ix2 j⟩
    rw [Finset.mem_filter] at hj
    show e ∈ _
    exact Finset.mem_filter.2 ⟨Finset.mem_univ _, ((rows_resultIdx?_eq_some_iff wf idx e g v f).1 hj.2).1⟩
  · intro e he
    rw [Finset.mem_filter] at he ⊢
    exact ⟨Finset.mem_univ _, (rows_resultIdx?_eq_some_iff wf idx e f v f).2 ⟨he.2, rfl⟩⟩
  · intro j hj
    obtain ⟨e, g, rfl⟩ : ∃ e g, j = ix2 e g := ⟨j 0, j 1, eq_ix2 j⟩
    rw [Finset.mem_filter] at hj
    obtain ⟨-, rfl⟩ := (rows_resultIdx?_eq_some_iff wf idx e g v f).1 hj.2
    rfl
  · intro e _
    rfl
  · intro j hj
    obtain ⟨e, g, rfl⟩ : ∃ e g, j = ix2 e g := ⟨j 0, j 1, eq_ix2 j⟩
    rw [Finset.mem_filter] at hj
    obtain ⟨-, rfl⟩ := (rows_resultIdx?_eq_some_iff wf idx e g v f).1 hj.2
    rfl

end Rows

/-! ## Scatter-add into a flat array: operand `[N]`, start words `[M, 1]`, updates `[M]` -/

/-- The dimension numbers of a flat scatter: no window axis; operand axis 0 is inserted and receives the start index,
    whose single component is read along axis 1 of the start words. -/
abbrev flatScatterDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

section Flat
variable {N M w : Nat} (wf : ScatterDims.WF ⟨1, ![N]⟩ ⟨2, ![M, 1]⟩ ⟨1, ![M]⟩ [] [0] [0] 1)

/-- The window of update `e` starts at the start word of row `e`, read signed. -/
theorem flat_start0 (idx : IVec ⟨2, ![M, 1]⟩ w) (e : Fin M) :
    (flatScatterDims N M wf).start (ix1 e) idx 0 = (idx (ix2 e (0 : Fin 1))).toInt := by
  unfold ScatterDims.start
  rw [dif_pos (show (0 : Fin 1) ∈ (flatScatterDims N M wf).scatterDimsToOperandDims from List.mem_singleton.mpr rfl)]
  have hsi : (flatScatterDims N M wf).siIdx (ix1 e) ⟨List.idxOf (0 : Fin 1) (flatScatterDims N M wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one operand axis is inserted: the window coordinate is `0`. -/
theorem flat_window0 (j : (⟨1, ![M]⟩ : Shape).Idx) : (flatScatterDims N M wf).window j 0 = 0 := rfl

/-- WHERE AN UPDATE LANDS: update `e` lands on `v` exactly when the start word of row `e`, read signed, is `v`. -/
theorem flat_resultIdx?_eq_some_iff (idx : IVec ⟨2, ![M, 1]⟩ w) (e : Fin M) (v : Fin N) :
    (flatScatterDims N M wf).resultIdx? (ix1 e) idx = some (ix1 v)
      ↔ (idx (ix2 e (0 : Fin 1))).toInt = (v.val : ℤ) := by
  have hs0 := flat_start0 wf idx e
  have hw0 := flat_window0 wf (ix1 e)
  have hvN : v.val < N := v.isLt
  have hsz0 : (⟨1, ![N]⟩ : Shape).size 0 = N := rfl
  unfold ScatterDims.resultIdx?
  split
  · rename_i h
    rw [Option.some.injEq]
    constructor
    · intro hfun
      have h0 := congrArg Fin.val (congrFun hfun 0)
      have hv0 : ((ix1 v : (⟨1, ![N]⟩ : Shape).Idx) 0).val = v.val := rfl
      simp only [hs0, hw0, hv0] at h0
      have hh := (h 0).1
      simp only [hs0, hw0] at hh
      omega
    · intro ht
      funext a
      refine Fin.ext ?_
      match a with
      | ⟨0, _⟩ =>
        show ((flatScatterDims N M wf).start (ix1 e) idx 0 + ((flatScatterDims N M wf).window (ix1 e) 0 : ℕ)).toNat = v.val
        rw [hs0, hw0, ht]; simp
  · rename_i h
    constructor
    · intro hc; exact absurd hc (by simp)
    · intro ht
      exfalso; apply h
      intro a
      match a with
      | ⟨0, _⟩ =>
        show 0 ≤ (flatScatterDims N M wf).start (ix1 e) idx 0 + ((flatScatterDims N M wf).window (ix1 e) 0 : ℕ) ∧
          (flatScatterDims N M wf).start (ix1 e) idx 0 + ((flatScatterDims N M wf).window (ix1 e) 0 : ℕ) < ((⟨1, ![N]⟩ : Shape).size 0 : ℕ)
        rw [hs0, hw0, ht, hsz0]; omega

/-- THE FLAT SCATTER-ADD READ AT `v`: the operand there plus the sum of `upd e` over the `e` whose start word, read
    signed, is `v`. -/
theorem scatterAdd_flat_apply {φ : FTy} (x : FVec Ideal ⟨1, ![N]⟩ φ) (idx : IVec ⟨2, ![M, 1]⟩ w)
    (upd : FVec Ideal ⟨1, ![M]⟩ φ) (v : Fin N) :
    Host.scatterAdd (flatScatterDims N M wf) x idx upd (ix1 v)
      = x (ix1 v) + ∑ e ∈ Finset.univ.filter (fun e : Fin M => (idx (ix2 e (0 : Fin 1))).toInt = (v.val : ℤ)),
          upd (ix1 e) := by
  show x (ix1 v) + ∑ j ∈ Finset.univ.filter (fun j => (flatScatterDims N M wf).resultIdx? j idx = some (ix1 v)), upd j = _
  congr 1
  refine Finset.sum_nbij' (fun j => j 0) (fun e => ix1 e) ?_ ?_ ?_ ?_ ?_
  · intro j hj
    obtain ⟨e, rfl⟩ : ∃ e, j = ix1 e := ⟨j 0, eq_ix1 j⟩
    rw [Finset.mem_filter] at hj
    show e ∈ _
    exact Finset.mem_filter.2 ⟨Finset.mem_univ _, (flat_resultIdx?_eq_some_iff wf idx e v).1 hj.2⟩
  · intro e he
    rw [Finset.mem_filter] at he ⊢
    exact ⟨Finset.mem_univ _, (flat_resultIdx?_eq_some_iff wf idx e v).2 he.2⟩
  · intro j _
    exact (eq_ix1 j).symm
  · intro e _
    rfl
  · intro j _
    exact congrArg upd (eq_ix1 j)

end Flat

/-! ## Gather of rows: operand `[N, C]`, start words `[M, 1]`, result `[M, C]` -/

/-- The dimension numbers of a row gather: result axis 1 is the offset axis and reads operand axis 1 over its whole
    width `C`; operand axis 0 is collapsed (a slice of one row) and receives the start index, whose single component is
    read along axis 1 of the start words. Their conditions `wf` are decided on literal sizes. -/
abbrev rowGatherDims (N M C : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, f)`: the operand at column `f` of the row named by the start word of row `e`, read
    signed and clamped into `[0, N − 1]`. -/
theorem gather_rows_apply {α : Type} {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (f : Fin C) :
    Host.gather (rowGatherDims N M C wf) x idx (ix2 e f)
      = x (ix2 (⟨min (idx (ix2 e (0 : Fin 1))).toInt.toNat (N - 1), by omega⟩ : Fin N) f) := by
  unfold Host.gather
  congr 1
  funext a
  refine Fin.ext ?_
  match a with
  | ⟨0, _⟩ =>
    show (rowGatherDims N M C wf).start (ix2 e f) idx 0 + (rowGatherDims N M C wf).batchCoord (ix2 e f) 0
      + (rowGatherDims N M C wf).offCoord (ix2 e f) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N M C wf).startIndexMap from List.mem_singleton.mpr rfl)]
    have hsi : (rowGatherDims N M C wf).siIdx (ix2 e f) ⟨List.idxOf (0 : Fin 2) (rowGatherDims N M C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N M C wf).start (ix2 e f) idx 1 + (rowGatherDims N M C wf).batchCoord (ix2 e f) 1
      + (rowGatherDims N M C wf).offCoord (ix2 e f) 1 = f.val
    rw [GatherDims.batchCoord_eq_zero _ _ _ List.not_mem_nil]
    have hst : (rowGatherDims N M C wf).start (ix2 e f) idx 1 = 0 := rfl
    have hoff : (rowGatherDims N M C wf).offCoord (ix2 e f) 1 = f.val := rfl
    rw [hst, hoff]; simp

/-! ## Gather from a flat array: operand `[N]`, start words `[M, 1]`, result `[M]` -/

/-- The dimension numbers of a flat gather: no offset axis; the one operand axis is collapsed and receives the start
    index, whose single component is read along axis 1 of the start words. -/
abbrev flatGatherDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE FLAT GATHER READ AT `e`: the operand at the start word of row `e`, read signed and clamped into `[0, N − 1]`. -/
theorem gather_flat_apply {α : Type} {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (flatGatherDims N M wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (flatGatherDims N M wf).start (ix1 e) idx 0 + (flatGatherDims N M wf).batchCoord (ix1 e) 0
    + (flatGatherDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGatherDims N M wf).startIndexMap from List.mem_singleton.mpr rfl)]
  have hsi : (flatGatherDims N M wf).siIdx (ix1 e) ⟨List.idxOf (0 : Fin 1) (flatGatherDims N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## A record written out at literal sizes is the generic one -/

/-- At literal sizes the dimension numbers written out field by field, their conditions decided, are the generic record:
    the two agree field for field, and the conditions are a proposition. -/
example :
    ({ updateWindowDims := [1], insertedWindowDims := [0], scatterDimsToOperandDims := [0], indexVectorDim := 1,
       wf := by decide } : ScatterDims ⟨2, ![50000, 64]⟩ ⟨2, ![850000, 1]⟩ ⟨2, ![850000, 64]⟩)
      = rowScatterDims 50000 850000 64 (by decide) := rfl

/-- Likewise for a gather's. -/
example :
    ({ offsetDims := [1], collapsedSliceDims := [0], operandBatchingDims := [], startIndicesBatchingDims := [],
       startIndexMap := [0], indexVectorDim := 1, sliceSizes := ![1, 64],
       wf := by decide } : GatherDims ⟨2, ![50000, 64]⟩ ⟨2, ![800000, 1]⟩ ⟨2, ![800000, 64]⟩)
      = rowGatherDims 50000 800000 64 (by decide) := rfl

end Cert.Lib.ScatterGather

end
-- ==== Proof.LibRowWindowGather.lean ====
/-
  A GATHER OF ROW WINDOWS, READ AT ONE INDEX, for every size of the arrays.

  An operand `x : [N, C]` and start vectors `idx : [M, 2]`: result row `e` is the window of `S` consecutive columns of
  one operand row. The row is the first word of start vector `e`, read as a SIGNED integer and clamped into
  `[0, N − 1]`; the window's first column is the second word, read signed and clamped into `[0, C − S]` so that the
  window fits. This is what `y[rows, c0:c0+S]` lowers to (one index vector per result row, both operand axes named
  by the start index map, the row axis collapsed). At `(e, f)` the result is therefore
      x (clamp (idx[e,0]), clamp (idx[e,1]) + f)
  (`gather_window_apply`). The proof evaluates the dimension numbers' coordinate maps once, for symbolic sizes: only
  the ranks, which are literals, decide them.
-/
import Idealize.ShloMosaic.PureOps.Ideal
import Idealize.ShloMosaic.Lib.ValueIdx

noncomputable section

namespace Cert.Lib.RowWindowGather

open Idealize.ShloMosaic Idealize.ShloMosaic.ValueIdx

/-- The dimension numbers of a row-window gather: result axis 1 is the offset axis and reads `S` columns of operand
    axis 1; operand axis 0 is collapsed (a slice of one row); the start index has two components, read along axis 1
    of the start vectors, the first for operand axis 0 and the second for operand axis 1. -/
abbrev windowGatherDims (N M C S : Nat)
    (wf : GatherDims.WF ⟨2, ![N, C]⟩ ⟨2, ![M, 2]⟩ ⟨2, ![M, S]⟩ [1] [0] [] [0, 1] [] 1 ![1, S]) :
    GatherDims ⟨2, ![N, C]⟩ ⟨2, ![M, 2]⟩ ⟨2, ![M, S]⟩ where
  offsetDims := [1]
  collapsedSliceDims := [0]
  operandBatchingDims := []
  startIndicesBatchingDims := []
  startIndexMap := [0, 1]
  indexVectorDim := 1
  sliceSizes := ![1, S]
  wf := wf

/-- THE ROW-WINDOW GATHER READ AT `(e, f)`: the operand at the row named by the first word of start vector `e` (read
    signed, clamped into `[0, N − 1]`) and at column `f` of the window starting at the second word (read signed,
    clamped into `[0, C − S]`). -/
theorem gather_window_apply {α : Type} {N M C S w : Nat} (hN : 0 < N) (hS : S ≤ C)
    (wf : GatherDims.WF ⟨2, ![N, C]⟩ ⟨2, ![M, 2]⟩ ⟨2, ![M, S]⟩ [1] [0] [] [0, 1] [] 1 ![1, S])
    (x : (⟨2, ![N, C]⟩ : Shape).Idx → α) (idx : IVec ⟨2, ![M, 2]⟩ w) (e : Fin M) (f : Fin S) :
    Host.gather (windowGatherDims N M C S wf) x idx (ix2 e f)
      = x (ix2 (⟨min (idx (ix2 e (0 : Fin 2))).toInt.toNat (N - 1), by omega⟩ : Fin N)
          (⟨min (idx (ix2 e (1 : Fin 2))).toInt.toNat (C - S) + f.val, by have := f.isLt; omega⟩ : Fin C)) := by
  unfold Host.gather
  congr 1
  funext a
  refine Fin.ext ?_
  match a with
  | ⟨0, _⟩ =>
    show (windowGatherDims N M C S wf).start (ix2 e f) idx 0 + (windowGatherDims N M C S wf).batchCoord (ix2 e f) 0
      + (windowGatherDims N M C S wf).offCoord (ix2 e f) 0 = min (idx (ix2 e (0 : Fin 2))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (windowGatherDims N M C S wf).startIndexMap from List.mem_cons_self ..)]
    have hsi : (windowGatherDims N M C S wf).siIdx (ix2 e f) ⟨List.idxOf (0 : Fin 2) (windowGatherDims N M C S wf).startIndexMap,
        List.idxOf_lt_length_iff.2 (List.mem_cons_self ..)⟩ = ix2 e (0 : Fin 2) := by
      funext b; refine Fin.ext ?_
      match b with
      | ⟨0, _⟩ => rfl
      | ⟨1, _⟩ => rfl
    rw [hsi]
    rfl
  | ⟨1, _⟩ =>
    show (windowGatherDims N M C S wf).start (ix2 e f) idx 1 + (windowGatherDims N M C S wf).batchCoord (ix2 e f) 1
      + (windowGatherDims N M C S wf).offCoord (ix2 e f) 1 = min (idx (ix2 e (1 : Fin 2))).toInt.toNat (C - S) + f.val
    rw [GatherDims.batchCoord_eq_zero _ _ _ List.not_mem_nil]
    have hoff : (windowGatherDims N M C S wf).offCoord (ix2 e f) 1 = f.val := rfl
    rw [hoff, Nat.add_zero]
    congr 1
    unfold GatherDims.start
    have hmem : (1 : Fin 2) ∈ (windowGatherDims N M C S wf).startIndexMap :=
      List.mem_cons_of_mem _ (List.mem_singleton.mpr rfl)
    rw [dif_pos hmem]
    have hsi : (windowGatherDims N M C S wf).siIdx (ix2 e f) ⟨List.idxOf (1 : Fin 2) (windowGatherDims N M C S wf).startIndexMap,
        List.idxOf_lt_length_iff.2 hmem⟩ = ix2 e (1 : Fin 2) := by
      funext b; refine Fin.ext ?_
      match b with
      | ⟨0, _⟩ => rfl
      | ⟨1, _⟩ => rfl
    rw [hsi]
    rfl

end Cert.Lib.RowWindowGather

end
-- ==== Proof.Decode.lean ====
/-
  The link-prediction decode, two ways, at one entry.

  `Z : [N, 64]` are the node embeddings, `Wl : [2, 128]` the decoder's weights, `P0, P1 : [M]` the two endpoint words of
  each of the `M` candidate edges. A word names a row of `Z` after it is read as a signed integer and clamped into
  `[0, N − 1]` (`row`).

  * The direct way gathers the two endpoint rows, joins them side by side into a row of 128 entries and multiplies by
    the transposed weights: entry `(e, j)` is the sum over `k < 128` of `pairs (e, k) · Wl (j, k)`.
  * The reordered way multiplies first: `Y = Z · Wcat` with `Wcat : [64, 4]` the two halves of the weights transposed
    and joined, `Wcat (k, c) = Wl (c, k)` for `c < 2` and `Wl (c − 2, 64 + k)` for `c ≥ 2`; then it gathers, for each edge,
    columns `0, 1` of row `P0` and columns `2, 3` of row `P1` of `Y` and adds them.

  Both are, at `(e, j)`,
      Σ_{k<64} Z (row P0 e, k) · Wl (j, k)  +  Σ_{k<64} Z (row P1 e, k) · Wl (j, 64 + k):
  the direct way because a sum over 128 consecutive indices is the sum over the first 64 plus the sum over the last 64
  (`LibSumGroups.sum_fin_add`: associativity and commutativity of addition only, so it holds with infinities), the
  reordered way because a gathered row of a product is the product of the gathered row. Nothing here needs the entries
  to be finite.
-/
import Idealize.ShloMosaic.PureOps.Ideal.Laws
import Idealize.ShloMosaic.Lib.ValueIdx
import Idealize.ShloMosaic.Lib.Pipeline.Value
import proofs.«129154_j2190433321526_2_alg».proof.Proof.Spec
import proofs.«129154_j2190433321526_2_alg».proof.Proof.LibSumGroups
import proofs.«129154_j2190433321526_2_alg».proof.Proof.LibScatterGather
import proofs.«129154_j2190433321526_2_alg».proof.Proof.LibRowWindowGather

noncomputable section

namespace Cert.Gcn

open Idealize.ShloMosaic Idealize.ShloMosaic.ValueIdx
open Cert.Lib.ScatterGather Cert.Lib.RowWindowGather

/-! ## The small layouts, at an index -/

/-- A vector laid out as a column reads, at `(e, 0)`, its entry `e`. -/
theorem column_apply {α : Type} {M : Nat} (P : (⟨1, ![M]⟩ : Shape).Idx → α)
    (h : (⟨1, ![M]⟩ : Shape).BroadcastsInDim ⟨2, ![M, 1]⟩ ![0]) (e : Fin M) :
    broadcastInDim ⟨2, ![M, 1]⟩ ![0] h P (ix2 e (0 : Fin 1)) = P (ix1 e) :=
  broadcastInDim_apply _ h P (ix2 e (0 : Fin 1)) (ix1 e) fun a => by
    match a with
    | ⟨0, _⟩ =>
      show e.val = if M = 1 then 0 else e.val
      split
      · have := e.isLt; omega
      · rfl

/-- The start vectors `[P | c]`: a column of words beside a constant column. -/
def startvec {M : Nat} (P : (⟨1, ![M]⟩ : Shape).Idx → BitVec 32) (c : BitVec 32)
    (h1 : (⟨1, ![M]⟩ : Shape).BroadcastsInDim ⟨2, ![M, 1]⟩ ![0]) (h0 : (⟨0, ![]⟩ : Shape).BroadcastsInDim ⟨2, ![M, 1]⟩ ![])
    (hc : Shape.Concatenates [⟨2, ![M, 1]⟩, ⟨2, ![M, 1]⟩] ⟨2, ![M, 2]⟩ 1) : IVec ⟨2, ![M, 2]⟩ 32 :=
  concatenate ⟨2, ![M, 2]⟩ 1 [⟨⟨2, ![M, 1]⟩, broadcastInDim ⟨2, ![M, 1]⟩ ![0] h1 P⟩,
    ⟨⟨2, ![M, 1]⟩, broadcastInDim ⟨2, ![M, 1]⟩ ![] h0 (constantI ⟨0, ![]⟩ 32 c)⟩] hc

/-- The first word of start vector `e` is `P e`. -/
theorem startvec_apply0 {M : Nat} (P : (⟨1, ![M]⟩ : Shape).Idx → BitVec 32) (c : BitVec 32)
    (h1 : (⟨1, ![M]⟩ : Shape).BroadcastsInDim ⟨2, ![M, 1]⟩ ![0]) (h0 : (⟨0, ![]⟩ : Shape).BroadcastsInDim ⟨2, ![M, 1]⟩ ![])
    (hc : Shape.Concatenates [⟨2, ![M, 1]⟩, ⟨2, ![M, 1]⟩] ⟨2, ![M, 2]⟩ 1) (e : Fin M) :
    startvec P c h1 h0 hc (ix2 e (0 : Fin 2)) = P (ix1 e) :=
  (concatenate_pair_apply_left 1 _ _ hc (ix2 e (0 : Fin 2)) rfl (ix2 e (0 : Fin 1)) fun b => by
    match b with
    | ⟨0, _⟩ => rfl
    | ⟨1, _⟩ => rfl).trans (column_apply P h1 e)

/-- The second word of every start vector is the constant. -/
theorem startvec_apply1 {M : Nat} (P : (⟨1, ![M]⟩ : Shape).Idx → BitVec 32) (c : BitVec 32)
    (h1 : (⟨1, ![M]⟩ : Shape).BroadcastsInDim ⟨2, ![M, 1]⟩ ![0]) (h0 : (⟨0, ![]⟩ : Shape).BroadcastsInDim ⟨2, ![M, 1]⟩ ![])
    (hc : Shape.Concatenates [⟨2, ![M, 1]⟩, ⟨2, ![M, 1]⟩] ⟨2, ![M, 2]⟩ 1) (e : Fin M) :
    startvec P c h1 h0 hc (ix2 e (1 : Fin 2)) = c :=
  (concatenate_pair_apply_right 1 _ _ hc (ix2 e (1 : Fin 2)) rfl rfl (ix2 e (0 : Fin 1)) (fun b hb => by
    match b with
    | ⟨0, _⟩ => rfl
    | ⟨1, _⟩ => exact absurd rfl hb) rfl).trans rfl

/-- The reordered decode's weight table `[64, 4]`: the two halves of the weights, each transposed, side by side. -/
def wcat (Wl : (⟨2, ![2, 128]⟩ : Shape).Idx → EReal)
    (hs0 : (⟨2, ![2, 128]⟩ : Shape).Slices ![0, 0] ⟨2, ![2, 64]⟩) (hs1 : (⟨2, ![2, 128]⟩ : Shape).Slices ![0, 64] ⟨2, ![2, 64]⟩)
    (ht : (⟨2, ![2, 64]⟩ : Shape).Transposes [1, 0] ⟨2, ![64, 2]⟩)
    (hc : Shape.Concatenates [⟨2, ![64, 2]⟩, ⟨2, ![64, 2]⟩] ⟨2, ![64, 4]⟩ 1) : (⟨2, ![64, 4]⟩ : Shape).Idx → EReal :=
  concatenate ⟨2, ![64, 4]⟩ 1 [⟨⟨2, ![64, 2]⟩, transpose ⟨2, ![64, 2]⟩ [1, 0] (extractStridedSlice ⟨2, ![2, 64]⟩ ![0, 0] Wl hs0) ht⟩,
    ⟨⟨2, ![64, 2]⟩, transpose ⟨2, ![64, 2]⟩ [1, 0] (extractStridedSlice ⟨2, ![2, 64]⟩ ![0, 64] Wl hs1) ht⟩] hc

/-- Columns `0, 1` of the table are the first 64 weights of outputs `0, 1`. -/
theorem wcat_left (Wl : (⟨2, ![2, 128]⟩ : Shape).Idx → EReal)
    (hs0 : (⟨2, ![2, 128]⟩ : Shape).Slices ![0, 0] ⟨2, ![2, 64]⟩) (hs1 : (⟨2, ![2, 128]⟩ : Shape).Slices ![0, 64] ⟨2, ![2, 64]⟩)
    (ht : (⟨2, ![2, 64]⟩ : Shape).Transposes [1, 0] ⟨2, ![64, 2]⟩)
    (hc : Shape.Concatenates [⟨2, ![64, 2]⟩, ⟨2, ![64, 2]⟩] ⟨2, ![64, 4]⟩ 1) (k : Fin 64) (j : Fin 2) :
    wcat Wl hs0 hs1 ht hc (ix2 k (⟨j.val, by omega⟩ : Fin 4)) = Wl (ix2 j (⟨k.val, by omega⟩ : Fin 128)) := by
  refine (concatenate_pair_apply_left 1 _ _ hc (ix2 k (⟨j.val, by omega⟩ : Fin 4)) rfl (ix2 k j) fun b => ?_).trans ?_
  · match b with
    | ⟨0, _⟩ => rfl
    | ⟨1, _⟩ => rfl
  refine (transpose_apply [1, 0] _ ht (ix2 k j) (ix2 j k) fun b => ?_).trans ?_
  · match b with
    | ⟨0, _⟩ => rfl
    | ⟨1, _⟩ => rfl
  exact extractStridedSlice_apply ![0, 0] Wl hs0 (ix2 j k) (ix2 j (⟨k.val, by omega⟩ : Fin 128)) fun a => by
    match a with
    | ⟨0, _⟩ => show j.val = 0 + j.val; omega
    | ⟨1, _⟩ => show k.val = 0 + k.val; omega

/-- Columns `2, 3` of the table are the last 64 weights of outputs `0, 1`. -/
theorem wcat_right (Wl : (⟨2, ![2, 128]⟩ : Shape).Idx → EReal)
    (hs0 : (⟨2, ![2, 128]⟩ : Shape).Slices ![0, 0] ⟨2, ![2, 64]⟩) (hs1 : (⟨2, ![2, 128]⟩ : Shape).Slices ![0, 64] ⟨2, ![2, 64]⟩)
    (ht : (⟨2, ![2, 64]⟩ : Shape).Transposes [1, 0] ⟨2, ![64, 2]⟩)
    (hc : Shape.Concatenates [⟨2, ![64, 2]⟩, ⟨2, ![64, 2]⟩] ⟨2, ![64, 4]⟩ 1) (k : Fin 64) (j : Fin 2) :
    wcat Wl hs0 hs1 ht hc (ix2 k (⟨2 + j.val, by omega⟩ : Fin 4)) = Wl (ix2 j (⟨64 + k.val, by omega⟩ : Fin 128)) := by
  refine (concatenate_pair_apply_right 1 _ _ hc (ix2 k (⟨2 + j.val, by omega⟩ : Fin 4)) rfl rfl (ix2 k j) (fun b hb => ?_) ?_).trans ?_
  · match b with
    | ⟨0, _⟩ => rfl
    | ⟨1, _⟩ => exact absurd rfl hb
  · show j.val + 2 = 2 + j.val; omega
  refine (transpose_apply [1, 0] _ ht (ix2 k j) (ix2 j k) fun b => ?_).trans ?_
  · match b with
    | ⟨0, _⟩ => rfl
    | ⟨1, _⟩ => rfl
  exact extractStridedSlice_apply ![0, 64] Wl hs1 (ix2 j k) (ix2 j (⟨64 + k.val, by omega⟩ : Fin 128)) fun a => by
    match a with
    | ⟨0, _⟩ => show j.val = 0 + j.val; omega
    | ⟨1, _⟩ => show 64 + k.val = 64 + k.val; rfl

/-- The row of `Z` a word names: the word read signed, clamped into `[0, N − 1]`. -/
def row {N M : Nat} (hN : 0 < N) (P : (⟨1, ![M]⟩ : Shape).Idx → BitVec 32) (e : Fin M) : Fin N :=
  ⟨min (P (ix1 e)).toInt.toNat (N - 1), by omega⟩

/-- What both decodes compute at `(e, j)`. -/
def decodeAt {N M : Nat} (hN : 0 < N) (Z : (⟨2, ![N, 64]⟩ : Shape).Idx → EReal) (Wl : (⟨2, ![2, 128]⟩ : Shape).Idx → EReal)
    (P0 P1 : (⟨1, ![M]⟩ : Shape).Idx → BitVec 32) (e : Fin M) (j : Fin 2) : EReal :=
  (∑ k : Fin 64, Z (ix2 (row hN P0 e) k) * Wl (ix2 j (⟨k.val, by omega⟩ : Fin 128)))
    + ∑ k : Fin 64, Z (ix2 (row hN P1 e) k) * Wl (ix2 j (⟨64 + k.val, by omega⟩ : Fin 128))

/-! ## The reordered decode -/

/-- One gathered window of the product `Z · Wcat`, at `(e, j)`, for a constant second word `c` that the clamp leaves
    at `c0`: the product of the gathered row with column `c0 + j` of the table. -/
theorem window_of_product {N M : Nat} (hN : 0 < N) (Z : (⟨2, ![N, 64]⟩ : Shape).Idx → EReal)
    (W : (⟨2, ![64, 4]⟩ : Shape).Idx → EReal) (P : (⟨1, ![M]⟩ : Shape).Idx → BitVec 32) (c : BitVec 32) (c0 : Nat)
    (hc0 : min c.toInt.toNat (4 - 2) = c0) (hc2 : c0 ≤ 2)
    (h1 : (⟨1, ![M]⟩ : Shape).BroadcastsInDim ⟨2, ![M, 1]⟩ ![0]) (h0 : (⟨0, ![]⟩ : Shape).BroadcastsInDim ⟨2, ![M, 1]⟩ ![])
    (hci : Shape.Concatenates [⟨2, ![M, 1]⟩, ⟨2, ![M, 1]⟩] ⟨2, ![M, 2]⟩ 1)
    (wfk : GatherDims.WF ⟨2, ![N, 4]⟩ ⟨2, ![M, 2]⟩ ⟨2, ![M, 2]⟩ [1] [0] [] [0, 1] [] 1 ![1, 2]) (e : Fin M) (j : Fin 2) :
    Host.gather (windowGatherDims N M 4 2 wfk) (mm Z W) (startvec P c h1 h0 hci) (ix2 e j)
      = ∑ k : Fin 64, Z (ix2 (row hN P e) k) * W (ix2 k (⟨c0 + j.val, by omega⟩ : Fin 4)) := by
  refine (gather_window_apply hN (by decide) wfk (mm Z W) (startvec P c h1 h0 hci) e j).trans ?_
  have er : (⟨min (startvec P c h1 h0 hci (ix2 e (0 : Fin 2))).toInt.toNat (N - 1), by omega⟩ : Fin N) = row hN P e :=
    Fin.ext (by show min _ _ = min _ _; rw [startvec_apply0])
  have ec : (⟨min (startvec P c h1 h0 hci (ix2 e (1 : Fin 2))).toInt.toNat (4 - 2) + j.val, by have := j.isLt; omega⟩ : Fin 4)
      = (⟨c0 + j.val, by omega⟩ : Fin 4) :=
    Fin.ext (by show min _ _ + j.val = c0 + j.val; rw [startvec_apply1, hc0])
  rw [er, ec]
  rfl

/-- THE REORDERED DECODE at `(e, j)`. -/
theorem reordered_decode_apply {N M : Nat} (hN : 0 < N) (Z : (⟨2, ![N, 64]⟩ : Shape).Idx → EReal)
    (Wl : (⟨2, ![2, 128]⟩ : Shape).Idx → EReal) (P0 P1 : (⟨1, ![M]⟩ : Shape).Idx → BitVec 32)
    (hs0 : (⟨2, ![2, 128]⟩ : Shape).Slices ![0, 0] ⟨2, ![2, 64]⟩) (hs1 : (⟨2, ![2, 128]⟩ : Shape).Slices ![0, 64] ⟨2, ![2, 64]⟩)
    (ht : (⟨2, ![2, 64]⟩ : Shape).Transposes [1, 0] ⟨2, ![64, 2]⟩)
    (hcw : Shape.Concatenates [⟨2, ![64, 2]⟩, ⟨2, ![64, 2]⟩] ⟨2, ![64, 4]⟩ 1)
    (h1 : (⟨1, ![M]⟩ : Shape).BroadcastsInDim ⟨2, ![M, 1]⟩ ![0]) (h0 : (⟨0, ![]⟩ : Shape).BroadcastsInDim ⟨2, ![M, 1]⟩ ![])
    (hci : Shape.Concatenates [⟨2, ![M, 1]⟩, ⟨2, ![M, 1]⟩] ⟨2, ![M, 2]⟩ 1)
    (wfk : GatherDims.WF ⟨2, ![N, 4]⟩ ⟨2, ![M, 2]⟩ ⟨2, ![M, 2]⟩ [1] [0] [] [0, 1] [] 1 ![1, 2]) (e : Fin M) (j : Fin 2) :
    Host.gather (windowGatherDims N M 4 2 wfk) (mm Z (wcat Wl hs0 hs1 ht hcw)) (startvec P0 0#32 h1 h0 hci) (ix2 e j)
      + Host.gather (windowGatherDims N M 4 2 wfk) (mm Z (wcat Wl hs0 hs1 ht hcw)) (startvec P1 2#32 h1 h0 hci) (ix2 e j)
      = decodeAt hN Z Wl P0 P1 e j := by
  rw [window_of_product hN Z _ P0 0#32 0 (by decide) (by decide) h1 h0 hci wfk e j,
    window_of_product hN Z _ P1 2#32 2 (by decide) (by decide) h1 h0 hci wfk e j]
  unfold decodeAt
  refine congrArg₂ (· + ·) (Finset.sum_congr rfl fun k _ => ?_) (Finset.sum_congr rfl fun k _ => ?_)
  · refine congrArg (Z (ix2 (row hN P0 e) k) * ·) ?_
    have ei : (⟨0 + j.val, by have := j.isLt; omega⟩ : Fin 4) = (⟨j.val, by have := j.isLt; omega⟩ : Fin 4) := Fin.ext (Nat.zero_add _)
    rw [ei]
    exact wcat_left Wl hs0 hs1 ht hcw k j
  · exact congrArg (Z (ix2 (row hN P1 e) k) * ·) (wcat_right Wl hs0 hs1 ht hcw k j)

/-! ## The direct decode -/

/-- The two gathered rows side by side. -/
def pairs {M : Nat} (G0 G1 : (⟨2, ![M, 64]⟩ : Shape).Idx → EReal)
    (hc : Shape.Concatenates [⟨2, ![M, 64]⟩, ⟨2, ![M, 64]⟩] ⟨2, ![M, 128]⟩ 1) : (⟨2, ![M, 128]⟩ : Shape).Idx → EReal :=
  concatenate ⟨2, ![M, 128]⟩ 1 [⟨⟨2, ![M, 64]⟩, G0⟩, ⟨⟨2, ![M, 64]⟩, G1⟩] hc

theorem pairs_left {M : Nat} (G0 G1 : (⟨2, ![M, 64]⟩ : Shape).Idx → EReal)
    (hc : Shape.Concatenates [⟨2, ![M, 64]⟩, ⟨2, ![M, 64]⟩] ⟨2, ![M, 128]⟩ 1) (e : Fin M) (k : Fin 64) :
    pairs G0 G1 hc (ix2 e (⟨k.val, by omega⟩ : Fin 128)) = G0 (ix2 e k) :=
  concatenate_pair_apply_left 1 _ _ hc (ix2 e (⟨k.val, by omega⟩ : Fin 128)) rfl (ix2 e k) fun b => by
    match b with
    | ⟨0, _⟩ => rfl
    | ⟨1, _⟩ => rfl

theorem pairs_right {M : Nat} (G0 G1 : (⟨2, ![M, 64]⟩ : Shape).Idx → EReal)
    (hc : Shape.Concatenates [⟨2, ![M, 64]⟩, ⟨2, ![M, 64]⟩] ⟨2, ![M, 128]⟩ 1) (e : Fin M) (k : Fin 64) :
    pairs G0 G1 hc (ix2 e (⟨64 + k.val, by omega⟩ : Fin 128)) = G1 (ix2 e k) :=
  concatenate_pair_apply_right 1 _ _ hc (ix2 e (⟨64 + k.val, by omega⟩ : Fin 128)) rfl rfl (ix2 e k) (fun b hb => by
    match b with
    | ⟨0, _⟩ => rfl
    | ⟨1, _⟩ => exact absurd rfl hb) (by show k.val + 64 = 64 + k.val; omega)

/-- A gathered row of `Z`, at `(e, k)`. -/
theorem gathered_row {N M : Nat} (hN : 0 < N) (Z : (⟨2, ![N, 64]⟩ : Shape).Idx → EReal)
    (P : (⟨1, ![M]⟩ : Shape).Idx → BitVec 32) (h1 : (⟨1, ![M]⟩ : Shape).BroadcastsInDim ⟨2, ![M, 1]⟩ ![0])
    (wfr : GatherDims.WF ⟨2, ![N, 64]⟩ ⟨2, ![M, 1]⟩ ⟨2, ![M, 64]⟩ [1] [0] [] [0] [] 1 ![1, 64]) (e : Fin M) (k : Fin 64) :
    Host.gather (rowGatherDims N M 64 wfr) Z (broadcastInDim ⟨2, ![M, 1]⟩ ![0] h1 P) (ix2 e k) = Z (ix2 (row hN P e) k) := by
  refine (gather_rows_apply hN wfr Z _ e k).trans ?_
  have er : (⟨min (broadcastInDim ⟨2, ![M, 1]⟩ ![0] h1 P (ix2 e (0 : Fin 1))).toInt.toNat (N - 1), by omega⟩ : Fin N) = row hN P e :=
    Fin.ext (by show min _ _ = min _ _; rw [column_apply])
  rw [er]

/-- THE DIRECT DECODE at `(e, j)`. -/
theorem direct_decode_apply {N M : Nat} (hN : 0 < N) (Z : (⟨2, ![N, 64]⟩ : Shape).Idx → EReal)
    (Wl : (⟨2, ![2, 128]⟩ : Shape).Idx → EReal) (P0 P1 : (⟨1, ![M]⟩ : Shape).Idx → BitVec 32)
    (h1 : (⟨1, ![M]⟩ : Shape).BroadcastsInDim ⟨2, ![M, 1]⟩ ![0])
    (wfr : GatherDims.WF ⟨2, ![N, 64]⟩ ⟨2, ![M, 1]⟩ ⟨2, ![M, 64]⟩ [1] [0] [] [0] [] 1 ![1, 64])
    (hcp : Shape.Concatenates [⟨2, ![M, 64]⟩, ⟨2, ![M, 64]⟩] ⟨2, ![M, 128]⟩ 1)
    (htr : (⟨2, ![2, 128]⟩ : Shape).Transposes [1, 0] ⟨2, ![128, 2]⟩) (e : Fin M) (j : Fin 2) :
    mm (pairs (Host.gather (rowGatherDims N M 64 wfr) Z (broadcastInDim ⟨2, ![M, 1]⟩ ![0] h1 P0))
          (Host.gather (rowGatherDims N M 64 wfr) Z (broadcastInDim ⟨2, ![M, 1]⟩ ![0] h1 P1)) hcp)
        (transpose ⟨2, ![128, 2]⟩ [1, 0] Wl htr) (ix2 e j)
      = decodeAt hN Z Wl P0 P1 e j := by
  have hW : ∀ k : Fin 128, transpose ⟨2, ![128, 2]⟩ [1, 0] Wl htr (ix2 k j) = Wl (ix2 j k) := fun k =>
    transpose_apply [1, 0] Wl htr (ix2 k j) (ix2 j k) fun b => by
      match b with
      | ⟨0, _⟩ => rfl
      | ⟨1, _⟩ => rfl
  rw [mm_apply, Cert.LibSumGroups.sum_fin_add 64 64 128 rfl]
  unfold decodeAt
  refine congrArg₂ (· + ·) (Finset.sum_congr rfl fun k _ => ?_) (Finset.sum_congr rfl fun k _ => ?_)
  · rw [hW, pairs_left, gathered_row hN Z P0 h1 wfr e k]
  · rw [hW, pairs_right, gathered_row hN Z P1 h1 wfr e k]

end Cert.Gcn

end
-- ==== Proof.HostFns.lean ====
/-
  The kernel program's host operations between its three products, as functions of arrays.

  `src`, `dst` are the two rows of the edge list and `pos0`, `pos1` the two rows of the candidate-edge list, each as a
  flat vector. `normE` / `normP` add the number of nodes to a negative word (python's wrap-around of an index). `agg h`
  is one round of message passing: gather the rows of `h` named by the source words, scale row `e` by the weight of edge
  `e`, and add each scaled row onto the row of a zero array named by its destination word. `decode y` gathers, for every
  candidate edge, columns `0, 1` of the row of `y` named by its first endpoint and columns `2, 3` of the row named by
  its second endpoint, and adds the two. `KV` composes them with the three products: the whole program as one function
  of its seven arguments.
-/
import proofs.«129154_j2190433321526_2_alg».proof.Proof.Gen.KernelIdeal
import proofs.«129154_j2190433321526_2_alg».proof.Proof.Spec
import proofs.«129154_j2190433321526_2_alg».proof.Proof.Decode
import Idealize.ShloMosaic.PureOps.Ideal

noncomputable section

namespace Cert.KernelIdeal.HostFns

open Idealize.ShloMosaic Idealize.ShloMosaic.ValueIdx
open Cert.KernelIdeal Cert.KernelIdeal.Facts₀ Cert.Gcn

/-- The source words of the edges: row 0 of the edge list. -/
def src (x1 : IVec S2x1000000 32) : IVec S1000000 32 :=
  shapeCast S1000000 (extractStridedSlice S1x1000000 ![0, 0] x1 slices_S2x1000000_S1x1000000_0_0) shapeCasts_S1x1000000_S1000000

/-- The destination words of the edges: row 1 of the edge list. -/
def dst (x1 : IVec S2x1000000 32) : IVec S1000000 32 :=
  shapeCast S1000000 (extractStridedSlice S1x1000000 ![1, 0] x1 slices_S2x1000000_S1x1000000_1_0) shapeCasts_S1x1000000_S1000000

/-- The first endpoints of the candidate edges. -/
def pos0 (x3 : IVec S2x500000 32) : IVec S500000 32 :=
  shapeCast S500000 (extractStridedSlice S1x500000 ![0, 0] x3 slices_S2x500000_S1x500000_0_0) shapeCasts_S1x500000_S500000

/-- The second endpoints of the candidate edges. -/
def pos1 (x3 : IVec S2x500000 32) : IVec S500000 32 :=
  shapeCast S500000 (extractStridedSlice S1x500000 ![1, 0] x3 slices_S2x500000_S1x500000_1_0) shapeCasts_S1x500000_S500000

/-- A negative edge word wraps around by the number of nodes. -/
def normE (p : IVec S1000000 32) : IVec S1000000 32 :=
  select (cmpi .slt p (broadcastInDim S1000000 ![] bcast_S_S1000000 (constantI S_ 32 0#32)))
    (addi p (broadcastInDim S1000000 ![] bcast_S_S1000000 (constantI S_ 32 100000#32))) p

/-- A negative candidate-edge word wraps around by the number of nodes. -/
def normP (p : IVec S500000 32) : IVec S500000 32 :=
  select (cmpi .slt p (broadcastInDim S500000 ![] bcast_S_S500000 (constantI S_ 32 0#32)))
    (addi p (broadcastInDim S500000 ![] bcast_S_S500000 (constantI S_ 32 100000#32))) p

/-- One round of message passing over the edges `(s, d)` with weights `w`. -/
def agg (h : FVec Ideal S100000x64 .f32) (s d : IVec S1000000 32) (w : FVec Ideal S1000000 .f32) : FVec Ideal S100000x64 .f32 :=
  Host.scatterAdd (F := Ideal) scatter_S100000x64_S1000000x1_S1000000x64_1_0_0_1
    (broadcastInDim S100000x64 ![] bcast_S_S100000x64 (constant (F := Ideal) S_ .f32 0x00000000#32))
    (broadcastInDim S1000000x1 ![0] bcast_S1000000_S1000000x1_0 d)
    (mulf (F := Ideal)
      (Host.gather gather_S100000x64_S1000000x1_S1000000x64_1_0_n_n_0_1_164 h
        (broadcastInDim S1000000x1 ![0] bcast_S1000000_S1000000x1_0 (normE s)))
      (broadcastInDim S1000000x64 ![0, 1] bcast_S1000000x1_S1000000x64_0_1
        (broadcastInDim S1000000x1 ![0] bcast_S1000000_S1000000x1_0 w)))

/-- The decoder's weight table `[64, 4]`. -/
def wtab (x6 : FVec Ideal S2x128 .f32) : FVec Ideal S64x4 .f32 :=
  wcat x6 slices_S2x128_S2x64_0_0 slices_S2x128_S2x64_0_64 transposes_S2x64_S64x2_1_0 concatenates_S64x2_S64x2_S64x4_d1

/-- The start vectors `[p | c]` of the decode's gathers. -/
def svec (p : IVec S500000 32) (c : BitVec 32) : IVec S500000x2 32 :=
  startvec p c bcast_S500000_S500000x1_0 bcast_S_S500000x1 concatenates_S500000x1_S500000x1_S500000x2_d1

/-- The reordered decode of the product `y`. -/
def decode (y : FVec Ideal S100000x4 .f32) (p0 p1 : IVec S500000 32) : FVec Ideal S500000x2 .f32 :=
  addf (F := Ideal)
    (Host.gather gather_S100000x4_S500000x2_S500000x2_1_0_n_n_01_1_12 y (svec (normP p0) 0#32))
    (Host.gather gather_S100000x4_S500000x2_S500000x2_1_0_n_n_01_1_12 y (svec (normP p1) 2#32))

/-- The decode at an index: the two gathered entries added. -/
theorem decode_apply (y : FVec Ideal S100000x4 .f32) (p0 p1 : IVec S500000 32) (i : S500000x2.Idx) :
    decode y p0 p1 i
      = Host.gather gather_S100000x4_S500000x2_S500000x2_1_0_n_n_01_1_12 y (svec (normP p0) 0#32) i
        + Host.gather gather_S100000x4_S500000x2_S500000x2_1_0_n_n_01_1_12 y (svec (normP p1) 2#32) i := rfl

/-- The reordered decode of a product with the decoder's table, at `(e, j)`, for ANY embeddings `Z`. -/
theorem decode_mm_apply (Z : FVec Ideal S100000x64 .f32) (x6 : FVec Ideal S2x128 .f32) (p0 p1 : IVec S500000 32)
    (e : Fin 500000) (j : Fin 2) :
    decode (mm (M := 100000) (K := 64) (N := 4) Z (wtab x6)) p0 p1 (ix2 e j)
      = decodeAt (N := 100000) (M := 500000) (by decide) Z x6 (normP p0) (normP p1) e j := by
  rw [decode_apply]
  exact reordered_decode_apply (N := 100000) (M := 500000) (by decide) Z x6 (normP p0) (normP p1)
    slices_S2x128_S2x64_0_0 slices_S2x128_S2x64_0_64 transposes_S2x64_S64x2_1_0 concatenates_S64x2_S64x2_S64x4_d1
    bcast_S500000_S500000x1_0 bcast_S_S500000x1 concatenates_S500000x1_S500000x1_S500000x2_d1
    gather_S100000x4_S500000x2_S500000x2_1_0_n_n_01_1_12_wf e j

/-- The node embeddings: two rounds of message passing around the two products. -/
def emb (x0 : FVec Ideal S100000x128 .f32) (x1 : IVec S2x1000000 32) (x2 : FVec Ideal S1000000 .f32)
    (x4 : FVec Ideal S128x64 .f32) (x5 : FVec Ideal S64x64 .f32) : FVec Ideal S100000x64 .f32 :=
  agg (mm (M := 100000) (K := 64) (N := 64)
      (relu (agg (mm (M := 100000) (K := 128) (N := 64) x0 x4) (src x1) (dst x1) x2)) x5) (src x1) (dst x1) x2

/-- THE KERNEL PROGRAM as one function of its seven arguments. -/
def KV (x0 : FVec Ideal S100000x128 .f32) (x1 : IVec S2x1000000 32) (x2 : FVec Ideal S1000000 .f32) (x3 : IVec S2x500000 32)
    (x4 : FVec Ideal S128x64 .f32) (x5 : FVec Ideal S64x64 .f32) (x6 : FVec Ideal S2x128 .f32) : FVec Ideal S500000x2 .f32 :=
  decode (mm (M := 100000) (K := 64) (N := 4) (emb x0 x1 x2 x4 x5) (wtab x6)) (pos0 x3) (pos1 x3)

end Cert.KernelIdeal.HostFns

end
-- ==== Proof.Stretch0.lean ====
/-
  The first stretch of host operations, read at the buffers later segments use: the rows of the two index lists as flat
  vectors, and the arguments it leaves alone. Stated for ANY contents `Vv` of the buffers before the stretch.
-/
import proofs.«129154_j2190433321526_2_alg».proof.Proof.Gen.KernelIdeal.Launch
import proofs.«129154_j2190433321526_2_alg».proof.Proof.HostFns
import Idealize.ShloMosaic.Lib.StableHlo.Run

set_option maxRecDepth 16384

noncomputable section

namespace Cert.KernelIdeal.Stretch0

open Idealize.ShloMosaic Idealize.ShloMosaic.TcCoe Idealize.ShloMosaic.StableHlo
open Idealize.SL Idealize.SL.Sem
open Cert.KernelIdeal Cert.KernelIdeal.Gen Cert.KernelIdeal.HostFns Cert.Gcn

/-- The source words. -/
theorem read0_v1 (Vv : Valuation τ sig (Elt Ideal)) :
    StableHlo.after hostOps0 Vv (Proc.devRef .tc main_call0_v1) = src (Vv (Proc.devRef .tc main_arg1)) := by
  after_results_simp <;> rfl
/-- The destination words. -/
theorem read0_v3 (Vv : Valuation τ sig (Elt Ideal)) :
    StableHlo.after hostOps0 Vv (Proc.devRef .tc main_call0_v3) = dst (Vv (Proc.devRef .tc main_arg1)) := by
  after_results_simp <;> rfl
/-- The first endpoints. -/
theorem read0_v5 (Vv : Valuation τ sig (Elt Ideal)) :
    StableHlo.after hostOps0 Vv (Proc.devRef .tc main_call0_v5) = pos0 (Vv (Proc.devRef .tc main_arg3)) := by
  after_results_simp <;> rfl
/-- The second endpoints. -/
theorem read0_v7 (Vv : Valuation τ sig (Elt Ideal)) :
    StableHlo.after hostOps0 Vv (Proc.devRef .tc main_call0_v7) = pos1 (Vv (Proc.devRef .tc main_arg3)) := by
  after_results_simp <;> rfl
/-- This stretch does not write the buffer. -/
theorem keep0_arg0 (Vv : Valuation τ sig (Elt Ideal)) : StableHlo.after hostOps0 Vv (Proc.devRef .tc main_arg0) = Vv (Proc.devRef .tc main_arg0) := by
  after_results_simp <;> rfl
/-- This stretch does not write the buffer. -/
theorem keep0_arg4 (Vv : Valuation τ sig (Elt Ideal)) : StableHlo.after hostOps0 Vv (Proc.devRef .tc main_arg4) = Vv (Proc.devRef .tc main_arg4) := by
  after_results_simp <;> rfl
/-- This stretch does not write the buffer. -/
theorem keep0_arg2 (Vv : Valuation τ sig (Elt Ideal)) : StableHlo.after hostOps0 Vv (Proc.devRef .tc main_arg2) = Vv (Proc.devRef .tc main_arg2) := by
  after_results_simp <;> rfl
/-- This stretch does not write the buffer. -/
theorem keep0_arg5 (Vv : Valuation τ sig (Elt Ideal)) : StableHlo.after hostOps0 Vv (Proc.devRef .tc main_arg5) = Vv (Proc.devRef .tc main_arg5) := by
  after_results_simp <;> rfl
/-- This stretch does not write the buffer. -/
theorem keep0_arg6 (Vv : Valuation τ sig (Elt Ideal)) : StableHlo.after hostOps0 Vv (Proc.devRef .tc main_arg6) = Vv (Proc.devRef .tc main_arg6) := by
  after_results_simp <;> rfl

end Cert.KernelIdeal.Stretch0

end
-- ==== Proof.Stretch1.lean ====
/-
  The second stretch of host operations (between the first and the second product): one round of message passing over
  the first product, and the buffers it leaves alone. Stated for ANY contents `Vv` of the buffers before the stretch.
-/
import proofs.«129154_j2190433321526_2_alg».proof.Proof.Gen.KernelIdeal.Launch
import proofs.«129154_j2190433321526_2_alg».proof.Proof.HostFns
import Idealize.ShloMosaic.Lib.StableHlo.Run

set_option maxRecDepth 16384
set_option maxHeartbeats 4000000

noncomputable section

namespace Cert.KernelIdeal.Stretch1

open Idealize.ShloMosaic Idealize.ShloMosaic.TcCoe Idealize.ShloMosaic.StableHlo
open Idealize.SL Idealize.SL.Sem
open Cert.KernelIdeal Cert.KernelIdeal.Gen Cert.KernelIdeal.HostFns Cert.Gcn

/-- The first layer's aggregate. -/
theorem read1_v21 (Vv : Valuation τ sig (Elt Ideal)) :
    StableHlo.after hostOps1 Vv (Proc.devRef .tc main_call0_v21) = agg (Vv (Proc.devRef .tc main_call0_v8)) (Vv (Proc.devRef .tc main_call0_v1)) (Vv (Proc.devRef .tc main_call0_v3)) (Vv (Proc.devRef .tc main_arg2)) := by
  after_results_simp <;> rfl
/-- This stretch does not write the buffer. -/
theorem keep1_arg2 (Vv : Valuation τ sig (Elt Ideal)) : StableHlo.after hostOps1 Vv (Proc.devRef .tc main_arg2) = Vv (Proc.devRef .tc main_arg2) := by
  after_results_simp <;> rfl
/-- This stretch does not write the buffer. -/
theorem keep1_arg5 (Vv : Valuation τ sig (Elt Ideal)) : StableHlo.after hostOps1 Vv (Proc.devRef .tc main_arg5) = Vv (Proc.devRef .tc main_arg5) := by
  after_results_simp <;> rfl
/-- This stretch does not write the buffer. -/
theorem keep1_arg6 (Vv : Valuation τ sig (Elt Ideal)) : StableHlo.after hostOps1 Vv (Proc.devRef .tc main_arg6) = Vv (Proc.devRef .tc main_arg6) := by
  after_results_simp <;> rfl
/-- This stretch does not write the buffer. -/
theorem keep1_v1 (Vv : Valuation τ sig (Elt Ideal)) : StableHlo.after hostOps1 Vv (Proc.devRef .tc main_call0_v1) = Vv (Proc.devRef .tc main_call0_v1) := by
  after_results_simp <;> rfl
/-- This stretch does not write the buffer. -/
theorem keep1_v3 (Vv : Valuation τ sig (Elt Ideal)) : StableHlo.after hostOps1 Vv (Proc.devRef .tc main_call0_v3) = Vv (Proc.devRef .tc main_call0_v3) := by
  after_results_simp <;> rfl
/-- This stretch does not write the buffer. -/
theorem keep1_v5 (Vv : Valuation τ sig (Elt Ideal)) : StableHlo.after hostOps1 Vv (Proc.devRef .tc main_call0_v5) = Vv (Proc.devRef .tc main_call0_v5) := by
  after_results_simp <;> rfl
/-- This stretch does not write the buffer. -/
theorem keep1_v7 (Vv : Valuation τ sig (Elt Ideal)) : StableHlo.after hostOps1 Vv (Proc.devRef .tc main_call0_v7) = Vv (Proc.devRef .tc main_call0_v7) := by
  after_results_simp <;> rfl

end Cert.KernelIdeal.Stretch1

end
-- ==== Proof.Stretch2.lean ====
/-
  The third stretch of host operations (between the second and the third product): one round of message passing over
  the second product, the decoder's weight table, and the buffers it leaves alone. Stated for ANY contents `Vv` of the
  buffers before the stretch.
-/
import proofs.«129154_j2190433321526_2_alg».proof.Proof.Gen.KernelIdeal.Launch
import proofs.«129154_j2190433321526_2_alg».proof.Proof.HostFns
import Idealize.ShloMosaic.Lib.StableHlo.Run

set_option maxRecDepth 16384
set_option maxHeartbeats 8000000

noncomputable section

namespace Cert.KernelIdeal.Stretch2

open Idealize.ShloMosaic Idealize.ShloMosaic.TcCoe Idealize.ShloMosaic.StableHlo
open Idealize.SL Idealize.SL.Sem
open Cert.KernelIdeal Cert.KernelIdeal.Gen Cert.KernelIdeal.HostFns Cert.Gcn

/-- The second layer's aggregate: the node embeddings. -/
theorem read2_v35 (Vv : Valuation τ sig (Elt Ideal)) :
    StableHlo.after hostOps2 Vv (Proc.devRef .tc main_call0_v35) = agg (Vv (Proc.devRef .tc main_call0_v22)) (Vv (Proc.devRef .tc main_call0_v1)) (Vv (Proc.devRef .tc main_call0_v3)) (Vv (Proc.devRef .tc main_arg2)) := by
  after_results_simp <;> rfl
/-- The decoder's weight table. -/
theorem read2_v40 (Vv : Valuation τ sig (Elt Ideal)) :
    StableHlo.after hostOps2 Vv (Proc.devRef .tc main_call0_v40) = wtab (Vv (Proc.devRef .tc main_arg6)) := by
  after_results
  rfl
/-- This stretch does not write the buffer. -/
theorem keep2_v5 (Vv : Valuation τ sig (Elt Ideal)) : StableHlo.after hostOps2 Vv (Proc.devRef .tc main_call0_v5) = Vv (Proc.devRef .tc main_call0_v5) := by
  after_results_simp <;> rfl
/-- This stretch does not write the buffer. -/
theorem keep2_v7 (Vv : Valuation τ sig (Elt Ideal)) : StableHlo.after hostOps2 Vv (Proc.devRef .tc main_call0_v7) = Vv (Proc.devRef .tc main_call0_v7) := by
  after_results_simp <;> rfl

end Cert.KernelIdeal.Stretch2

end
-- ==== Proof.Stretch3.lean ====
/-
  The last stretch of host operations (after the third product): the reordered decode of the product. Stated for ANY
  contents `Vv` of the buffers before the stretch.
-/
import proofs.«129154_j2190433321526_2_alg».proof.Proof.Gen.KernelIdeal.Launch
import proofs.«129154_j2190433321526_2_alg».proof.Proof.HostFns
import Idealize.ShloMosaic.Lib.StableHlo.Run

set_option maxRecDepth 16384
set_option maxHeartbeats 16000000

noncomputable section

namespace Cert.KernelIdeal.Stretch3

open Idealize.ShloMosaic Idealize.ShloMosaic.TcCoe Idealize.ShloMosaic.StableHlo
open Idealize.SL Idealize.SL.Sem
open Cert.KernelIdeal Cert.KernelIdeal.Gen Cert.KernelIdeal.HostFns Cert.Gcn

/-- The program's result. -/
theorem read3_v0 (Vv : Valuation τ sig (Elt Ideal)) :
    StableHlo.after hostOps3 Vv (Proc.devRef .tc main_v0) = decode (Vv (Proc.devRef .tc main_call0_v41)) (Vv (Proc.devRef .tc main_call0_v5)) (Vv (Proc.devRef .tc main_call0_v7)) := by
  after_results
  rfl

end Cert.KernelIdeal.Stretch3

end
-- ==== Proof.Fold.lean ====
/-
  The idealized kernel program's result buffer, after the run, as ONE function of the seven argument arrays.

  The generated frame walks the buffers' contents through the program's seven segments (`Gen.W0` … `Gen.W7`). Here the
  walk is read at the buffers that matter. A host stretch's result is its function of the buffers it reads
  (`Stretch0` … `Stretch3`), and it leaves every other buffer as it was; a region leaves its output array at the product
  of its two input arrays as it found them (`Region0` … `Region2`) and every buffer that is not one of its arrays as it
  was. Composing from the launch memory: the first product of `x` and `W1`, one round of message passing, the second
  product of its clip with `W2`, another round, the third product with the decoder's table, and the decode of it:
  `HostFns.KV` of the seven arguments.
-/
import proofs.«129154_j2190433321526_2_alg».proof.Proof.Gen.KernelIdeal.Frame
import proofs.«129154_j2190433321526_2_alg».proof.Proof.Region0
import proofs.«129154_j2190433321526_2_alg».proof.Proof.Region1
import proofs.«129154_j2190433321526_2_alg».proof.Proof.Region2
import proofs.«129154_j2190433321526_2_alg».proof.Proof.Stretch0
import proofs.«129154_j2190433321526_2_alg».proof.Proof.Stretch1
import proofs.«129154_j2190433321526_2_alg».proof.Proof.Stretch2
import proofs.«129154_j2190433321526_2_alg».proof.Proof.Stretch3
import proofs.«129154_j2190433321526_2_alg».proof.Proof.HostFns

set_option maxRecDepth 16384

noncomputable section

namespace Cert.KernelIdeal.Fold

open Idealize.ShloMosaic Idealize.ShloMosaic.TcCoe Idealize.ShloMosaic.StableHlo
open Idealize.SL Idealize.SL.Sem
open Cert.KernelIdeal Cert.KernelIdeal.Gen Cert.KernelIdeal.HostFns Cert.Gcn
open Cert.KernelIdeal.Stretch0 Cert.KernelIdeal.Stretch1 Cert.KernelIdeal.Stretch2 Cert.KernelIdeal.Stretch3

variable (m : (ℓ : Loc nD τ sig) → Buf (Elt Ideal) ℓ) (ρ : Dev nD → PrngReg)

/-- The seven arguments' launch contents on core `c`. -/
abbrev a0 (c : Dev nD) : FVec Ideal S100000x128 .f32 := m ((c : Thread nD τ).loc main_arg0)
abbrev a1 (c : Dev nD) : IVec S2x1000000 32 := m ((c : Thread nD τ).loc main_arg1)
abbrev a2 (c : Dev nD) : FVec Ideal S1000000 .f32 := m ((c : Thread nD τ).loc main_arg2)
abbrev a3 (c : Dev nD) : IVec S2x500000 32 := m ((c : Thread nD τ).loc main_arg3)
abbrev a4 (c : Dev nD) : FVec Ideal S128x64 .f32 := m ((c : Thread nD τ).loc main_arg4)
abbrev a5 (c : Dev nD) : FVec Ideal S64x64 .f32 := m ((c : Thread nD τ).loc main_arg5)
abbrev a6 (c : Dev nD) : FVec Ideal S2x128 .f32 := m ((c : Thread nD τ).loc main_arg6)

/-! ## The buffers carried unchanged from where they are written to where they are read -/

theorem W1_v1 (c : Dev nD) : W1 m ρ c (Proc.devRef .tc main_call0_v1) = src (a1 m c) := read0_v1 (W0 m ρ c)
theorem W1_v3 (c : Dev nD) : W1 m ρ c (Proc.devRef .tc main_call0_v3) = dst (a1 m c) := read0_v3 (W0 m ρ c)
theorem W1_v5 (c : Dev nD) : W1 m ρ c (Proc.devRef .tc main_call0_v5) = pos0 (a3 m c) := read0_v5 (W0 m ρ c)
theorem W1_v7 (c : Dev nD) : W1 m ρ c (Proc.devRef .tc main_call0_v7) = pos1 (a3 m c) := read0_v7 (W0 m ρ c)
theorem W1_arg0 (c : Dev nD) : W1 m ρ c (Proc.devRef .tc main_arg0) = a0 m c := keep0_arg0 (W0 m ρ c)
theorem W1_arg4 (c : Dev nD) : W1 m ρ c (Proc.devRef .tc main_arg4) = a4 m c := keep0_arg4 (W0 m ρ c)
theorem W1_arg2 (c : Dev nD) : W1 m ρ c (Proc.devRef .tc main_arg2) = a2 m c := keep0_arg2 (W0 m ρ c)
theorem W2_arg2 (c : Dev nD) : W2 m ρ c (Proc.devRef .tc main_arg2) = a2 m c := (W2_of_ne m ρ c main_arg2 (by decide)).trans (W1_arg2 m ρ c)
theorem W3_arg2 (c : Dev nD) : W3 m ρ c (Proc.devRef .tc main_arg2) = a2 m c := (keep1_arg2 (W2 m ρ c)).trans (W2_arg2 m ρ c)
theorem W4_arg2 (c : Dev nD) : W4 m ρ c (Proc.devRef .tc main_arg2) = a2 m c := (W4_of_ne m ρ c main_arg2 (by decide)).trans (W3_arg2 m ρ c)
theorem W1_arg5 (c : Dev nD) : W1 m ρ c (Proc.devRef .tc main_arg5) = a5 m c := keep0_arg5 (W0 m ρ c)
theorem W2_arg5 (c : Dev nD) : W2 m ρ c (Proc.devRef .tc main_arg5) = a5 m c := (W2_of_ne m ρ c main_arg5 (by decide)).trans (W1_arg5 m ρ c)
theorem W3_arg5 (c : Dev nD) : W3 m ρ c (Proc.devRef .tc main_arg5) = a5 m c := (keep1_arg5 (W2 m ρ c)).trans (W2_arg5 m ρ c)
theorem W1_arg6 (c : Dev nD) : W1 m ρ c (Proc.devRef .tc main_arg6) = a6 m c := keep0_arg6 (W0 m ρ c)
theorem W2_arg6 (c : Dev nD) : W2 m ρ c (Proc.devRef .tc main_arg6) = a6 m c := (W2_of_ne m ρ c main_arg6 (by decide)).trans (W1_arg6 m ρ c)
theorem W3_arg6 (c : Dev nD) : W3 m ρ c (Proc.devRef .tc main_arg6) = a6 m c := (keep1_arg6 (W2 m ρ c)).trans (W2_arg6 m ρ c)
theorem W4_arg6 (c : Dev nD) : W4 m ρ c (Proc.devRef .tc main_arg6) = a6 m c := (W4_of_ne m ρ c main_arg6 (by decide)).trans (W3_arg6 m ρ c)
theorem W2_v1 (c : Dev nD) : W2 m ρ c (Proc.devRef .tc main_call0_v1) = src (a1 m c) := (W2_of_ne m ρ c main_call0_v1 (by decide)).trans (W1_v1 m ρ c)
theorem W3_v1 (c : Dev nD) : W3 m ρ c (Proc.devRef .tc main_call0_v1) = src (a1 m c) := (keep1_v1 (W2 m ρ c)).trans (W2_v1 m ρ c)
theorem W4_v1 (c : Dev nD) : W4 m ρ c (Proc.devRef .tc main_call0_v1) = src (a1 m c) := (W4_of_ne m ρ c main_call0_v1 (by decide)).trans (W3_v1 m ρ c)
theorem W2_v3 (c : Dev nD) : W2 m ρ c (Proc.devRef .tc main_call0_v3) = dst (a1 m c) := (W2_of_ne m ρ c main_call0_v3 (by decide)).trans (W1_v3 m ρ c)
theorem W3_v3 (c : Dev nD) : W3 m ρ c (Proc.devRef .tc main_call0_v3) = dst (a1 m c) := (keep1_v3 (W2 m ρ c)).trans (W2_v3 m ρ c)
theorem W4_v3 (c : Dev nD) : W4 m ρ c (Proc.devRef .tc main_call0_v3) = dst (a1 m c) := (W4_of_ne m ρ c main_call0_v3 (by decide)).trans (W3_v3 m ρ c)
theorem W2_v5 (c : Dev nD) : W2 m ρ c (Proc.devRef .tc main_call0_v5) = pos0 (a3 m c) := (W2_of_ne m ρ c main_call0_v5 (by decide)).trans (W1_v5 m ρ c)
theorem W3_v5 (c : Dev nD) : W3 m ρ c (Proc.devRef .tc main_call0_v5) = pos0 (a3 m c) := (keep1_v5 (W2 m ρ c)).trans (W2_v5 m ρ c)
theorem W4_v5 (c : Dev nD) : W4 m ρ c (Proc.devRef .tc main_call0_v5) = pos0 (a3 m c) := (W4_of_ne m ρ c main_call0_v5 (by decide)).trans (W3_v5 m ρ c)
theorem W5_v5 (c : Dev nD) : W5 m ρ c (Proc.devRef .tc main_call0_v5) = pos0 (a3 m c) := (keep2_v5 (W4 m ρ c)).trans (W4_v5 m ρ c)
theorem W6_v5 (c : Dev nD) : W6 m ρ c (Proc.devRef .tc main_call0_v5) = pos0 (a3 m c) := (W6_of_ne m ρ c main_call0_v5 (by decide)).trans (W5_v5 m ρ c)
theorem W2_v7 (c : Dev nD) : W2 m ρ c (Proc.devRef .tc main_call0_v7) = pos1 (a3 m c) := (W2_of_ne m ρ c main_call0_v7 (by decide)).trans (W1_v7 m ρ c)
theorem W3_v7 (c : Dev nD) : W3 m ρ c (Proc.devRef .tc main_call0_v7) = pos1 (a3 m c) := (keep1_v7 (W2 m ρ c)).trans (W2_v7 m ρ c)
theorem W4_v7 (c : Dev nD) : W4 m ρ c (Proc.devRef .tc main_call0_v7) = pos1 (a3 m c) := (W4_of_ne m ρ c main_call0_v7 (by decide)).trans (W3_v7 m ρ c)
theorem W5_v7 (c : Dev nD) : W5 m ρ c (Proc.devRef .tc main_call0_v7) = pos1 (a3 m c) := (keep2_v7 (W4 m ρ c)).trans (W4_v7 m ρ c)
theorem W6_v7 (c : Dev nD) : W6 m ρ c (Proc.devRef .tc main_call0_v7) = pos1 (a3 m c) := (W6_of_ne m ρ c main_call0_v7 (by decide)).trans (W5_v7 m ρ c)

/-! ## The products and the rounds of message passing -/

/-- After region 0: the first product. -/
theorem W2_v8 (c : Dev nD) : W2 m ρ c (Proc.devRef .tc main_call0_v8) = mm (M := 100000) (K := 128) (N := 64) (a0 m c) (a4 m c) :=
  (W2_arr m ρ c 2).trans ((Region0.final (V1 m ρ) c).trans
    (congrArg₂ (mm (M := 100000) (K := 128) (N := 64)) (W1_arg0 m ρ c) (W1_arg4 m ρ c)))

/-- Before region 1: the first layer's aggregate. -/
theorem W3_v21 (c : Dev nD) : W3 m ρ c (Proc.devRef .tc main_call0_v21)
    = agg (mm (M := 100000) (K := 128) (N := 64) (a0 m c) (a4 m c)) (src (a1 m c)) (dst (a1 m c)) (a2 m c) :=
  (read1_v21 (W2 m ρ c)).trans (by rw [W2_v8 m ρ c, W2_v1 m ρ c, W2_v3 m ρ c, W2_arg2 m ρ c])

/-- After region 1: the second product, of the clipped aggregate. -/
theorem W4_v22 (c : Dev nD) : W4 m ρ c (Proc.devRef .tc main_call0_v22)
    = mm (M := 100000) (K := 64) (N := 64)
        (relu (agg (mm (M := 100000) (K := 128) (N := 64) (a0 m c) (a4 m c)) (src (a1 m c)) (dst (a1 m c)) (a2 m c))) (a5 m c) :=
  (W4_arr m ρ c 2).trans ((Region1.final (V3 m ρ) c).trans
    (congrArg₂ (fun a b => mm (M := 100000) (K := 64) (N := 64) (relu a) b) (W3_v21 m ρ c) (W3_arg5 m ρ c)))

/-- Before region 2: the node embeddings. -/
theorem W5_v35 (c : Dev nD) : W5 m ρ c (Proc.devRef .tc main_call0_v35) = emb (a0 m c) (a1 m c) (a2 m c) (a4 m c) (a5 m c) :=
  (read2_v35 (W4 m ρ c)).trans (by rw [W4_v22 m ρ c, W4_v1 m ρ c, W4_v3 m ρ c, W4_arg2 m ρ c]; rfl)

/-- Before region 2: the decoder's weight table. -/
theorem W5_v40 (c : Dev nD) : W5 m ρ c (Proc.devRef .tc main_call0_v40) = wtab (a6 m c) :=
  (read2_v40 (W4 m ρ c)).trans (by rw [W4_arg6 m ρ c])

/-- After region 2: the third product. -/
theorem W6_v41 (c : Dev nD) : W6 m ρ c (Proc.devRef .tc main_call0_v41)
    = mm (M := 100000) (K := 64) (N := 4) (emb (a0 m c) (a1 m c) (a2 m c) (a4 m c) (a5 m c)) (wtab (a6 m c)) :=
  (W6_arr m ρ c 2).trans ((Region2.final (V5 m ρ) c).trans
    (congrArg₂ (mm (M := 100000) (K := 64) (N := 4)) (W5_v35 m ρ c) (W5_v40 m ρ c)))

/-- THE RESULT BUFFER at the last boundary: the program's function of the seven arguments. -/
theorem W7_v0 (c : Dev nD) : W7 m ρ c (Proc.devRef .tc main_v0)
    = KV (a0 m c) (a1 m c) (a2 m c) (a3 m c) (a4 m c) (a5 m c) (a6 m c) :=
  (read3_v0 (W6 m ρ c)).trans (by rw [W6_v41 m ρ c, W6_v5 m ρ c, W6_v7 m ρ c]; rfl)

end Cert.KernelIdeal.Fold

end
-- ==== Proof.Bridge.lean ====
/-
  The kernel program and the reference are one function of the seven arguments.

  Both programs run the same two rounds of message passing (`agg`: gather the source rows, scale by the edge weights,
  add onto the destination rows; the same operations in the same order, so the two spellings are equal as terms)
  around the same two products: the kernel's products are `mm` by its regions' closed forms and the reference's by the
  host's `dot_general` read as a sum; the clip at zero is applied to the same array, by the kernel as it loads its
  block and by the reference as a separate pass. So the node embeddings agree, as whole arrays, with no condition on
  the entries. The two decodes of those embeddings agree entry by entry (`Decode.lean`): the sum over the 128 joined
  columns splits into the sums over the two halves.
-/
import proofs.«129154_j2190433321526_2_alg».proof.Proof.HostFns
import proofs.«129154_j2190433321526_2_alg».proof.Proof.Gen.ReferenceIdeal.Read
import proofs.«129154_j2190433321526_2_alg».proof.Proof.Spec
import proofs.«129154_j2190433321526_2_alg».proof.Proof.Decode

noncomputable section

namespace Cert.Bridge

open Idealize.ShloMosaic Idealize.ShloMosaic.ValueIdx
open Cert.Gcn Cert.Lib.ScatterGather Cert.Lib.RowWindowGather
open Cert.KernelIdeal.HostFns Cert.ReferenceIdeal.Read

variable (x0 : FVec Ideal ⟨2, ![100000, 128]⟩ .f32) (x1 : IVec ⟨2, ![2, 1000000]⟩ 32) (x2 : FVec Ideal ⟨1, ![1000000]⟩ .f32)
  (x3 : IVec ⟨2, ![2, 500000]⟩ 32) (x4 : FVec Ideal ⟨2, ![128, 64]⟩ .f32) (x5 : FVec Ideal ⟨2, ![64, 64]⟩ .f32)
  (x6 : FVec Ideal ⟨2, ![2, 128]⟩ .f32)

/-- One round of message passing in the reference's spelling. -/
def aggR (h : FVec Ideal ⟨2, ![100000, 64]⟩ .f32) (x1 : IVec ⟨2, ![2, 1000000]⟩ 32) (x2 : FVec Ideal ⟨1, ![1000000]⟩ .f32) :
    FVec Ideal ⟨2, ![100000, 64]⟩ .f32 :=
  Host.scatterAdd (F := Ideal) Cert.ReferenceIdeal.scatter_S100000x64_S1000000x1_S1000000x64_1_0_0_1 (val_main_v15 (F := Ideal))
    (val_main_v16 (F := Ideal) x1)
    (mulf (F := Ideal) (Host.gather Cert.ReferenceIdeal.gather_S100000x64_S1000000x1_S1000000x64_1_0_n_n_0_1_164 h (val_main_v10 (F := Ideal) x1))
      (val_main_v13 (F := Ideal) x2))

/-- The two spellings of a round of message passing are one term. -/
theorem agg_eq (h : FVec Ideal ⟨2, ![100000, 64]⟩ .f32) : agg h (src x1) (dst x1) x2 = aggR h x1 x2 := rfl

/-- The reference's first product. -/
theorem v4_eq : val_main_v4 (F := Ideal) x0 x4 = mm x0 x4 :=
  dotGeneral_eq_mm Cert.ReferenceIdeal.dot_S100000x128_S128x64_S100000x64_1_0_0_1_n_n rfl rfl (fun _ _ => rfl) (fun _ _ => rfl) (fun _ _ => rfl) (fun _ _ => rfl) none x0 x4

/-- The reference's first aggregate. -/
theorem v17_eq : val_main_v17 (F := Ideal) x0 x1 x2 x4 = aggR (mm x0 x4) x1 x2 := by
  rw [← v4_eq]; rfl

/-- The reference's clip. -/
theorem v18_eq : val_main_v18 (F := Ideal) x0 x1 x2 x4 = relu (aggR (mm x0 x4) x1 x2) := by
  rw [← v17_eq]; exact host_relu _ _ _

/-- The reference's second product. -/
theorem v19_eq : val_main_v19 (F := Ideal) x0 x1 x2 x4 x5 = mm (relu (aggR (mm x0 x4) x1 x2)) x5 := by
  rw [← v18_eq]
  exact dotGeneral_eq_mm Cert.ReferenceIdeal.dot_S100000x64_S64x64_S100000x64_1_0_0_1_n_n rfl rfl (fun _ _ => rfl) (fun _ _ => rfl) (fun _ _ => rfl) (fun _ _ => rfl) none _ x5

/-- The reference's node embeddings. -/
theorem v32_eq : val_main_v32 (F := Ideal) x0 x1 x2 x4 x5 = aggR (mm (relu (aggR (mm x0 x4) x1 x2)) x5) x1 x2 := by
  rw [← v19_eq]; rfl

/-- THE NODE EMBEDDINGS AGREE, as whole arrays. -/
theorem emb_eq : emb x0 x1 x2 x4 x5 = val_main_v32 (F := Ideal) x0 x1 x2 x4 x5 := by
  rw [v32_eq]; unfold emb; rw [agg_eq, agg_eq]

/-- The first endpoints' words, wrapped, in the two spellings. -/
theorem normP_pos0 : normP (pos0 x3) = val_main_v39 (F := Ideal) x3 := rfl

/-- The second endpoints' words, wrapped, in the two spellings. -/
theorem normP_pos1 : normP (pos1 x3) = val_main_v48 (F := Ideal) x3 := rfl

/-- THE TWO PROGRAMS' RESULTS AGREE: the reordered decode of the kernel is the reference's direct decode. -/
theorem KV_eq : KV x0 x1 x2 x3 x4 x5 x6 = val_main_v53 (F := Ideal) x0 x1 x2 x3 x4 x5 x6 := by
  funext i
  obtain ⟨e, j, rfl⟩ : ∃ (e : Fin 500000) (j : Fin 2), i = ix2 e j := ⟨i 0, i 1, eq_ix2 i⟩
  have hK : KV x0 x1 x2 x3 x4 x5 x6 (ix2 e j)
      = decodeAt (N := 100000) (M := 500000) (by decide) (emb x0 x1 x2 x4 x5) x6 (normP (pos0 x3)) (normP (pos1 x3)) e j := by
    unfold KV
    exact decode_mm_apply (emb x0 x1 x2 x4 x5) x6 (pos0 x3) (pos1 x3) e j
  have hR : val_main_v53 (F := Ideal) x0 x1 x2 x3 x4 x5 x6 (ix2 e j)
      = decodeAt (N := 100000) (M := 500000) (by decide) (val_main_v32 (F := Ideal) x0 x1 x2 x4 x5) x6
          (val_main_v39 (F := Ideal) x3) (val_main_v48 (F := Ideal) x3) e j :=
    (congrFun (dotGeneral_eq_mm Cert.ReferenceIdeal.dot_S500000x128_S128x2_S500000x2_1_0_0_1_n_n rfl rfl (fun _ _ => rfl) (fun _ _ => rfl) (fun _ _ => rfl) (fun _ _ => rfl) none
        (val_main_v51 (F := Ideal) x0 x1 x2 x3 x4 x5) (val_main_v52 (F := Ideal) x6)) (ix2 e j)).trans
      (direct_decode_apply (N := 100000) (M := 500000) (by decide) (val_main_v32 (F := Ideal) x0 x1 x2 x4 x5) x6
        (val_main_v39 (F := Ideal) x3) (val_main_v48 (F := Ideal) x3) _ _ _ _ e j)
  rw [hK, hR, emb_eq, normP_pos0, normP_pos1]

end Cert.Bridge

end
-- ==== Proof.lean ====
/-
  A two-layer graph convolution followed by a link-prediction decode: the kernel program against its reference, at the
  exact instance (floats are extended reals, every operation the textbook one, a change of float format the identity).

  The reference computes, for node features `x`, an edge list with weights `w`, candidate edges `(p0, p1)` and weights
  `W1`, `W2`, `Wlin`:
      h = relu (A (x · W1)),   z = A (h · W2),   out = [z[p0] | z[p1]] · Wlinᵀ,
  where `A` gathers the rows named by the edges' sources, scales row `e` by `w e` and adds it onto the row named by
  the edge's destination. The kernel program computes the three products in three pipelined regions, ten row blocks
  each — the clip at zero applied to a block of `A (x · W1)` as the second region loads it — with the same host
  operations for `A` in between, and reorders the decode: it multiplies `z` by the two halves of `Wlin` (transposed,
  side by side) BEFORE gathering, then gathers two columns per endpoint and adds.

  * Each region's output array is the product of its input arrays (`Region0` … `Region2`): the blocks tile the rows
    and a row of a product depends on the same row of the left factor only.
  * The kernel program's result buffer after the run is `HostFns.KV` of the seven arguments (`KernelRun`, `Fold`).
  * `KV` is the reference's result term (`Bridge`): the embeddings `z` agree as whole arrays, both sides applying the
    same operations to equal arrays; the two decodes agree entry by entry because a gathered row of a product is the
    product of the gathered row, and a sum over 128 joined columns is the sum over the first 64 plus the sum over the
    last 64 (`Decode`). Only associativity and commutativity of addition are used: no entry need be finite, and the
    precondition is never opened.
  The ideal pass rewrote nothing, so `preserves` is `True`. The frames of the two kernel programs are the generated
  ones; the reference's frame is its generated run with the result dropped.
-/
import proofs.«129154_j2190433321526_2_alg».proof.Defs
import proofs.«129154_j2190433321526_2_alg».proof.Proof.Gen.Kernel
import proofs.«129154_j2190433321526_2_alg».proof.Proof.Gen.Kernel.Skeleton
import proofs.«129154_j2190433321526_2_alg».proof.Proof.Gen.Kernel.Launch
import proofs.«129154_j2190433321526_2_alg».proof.Proof.Gen.Kernel.Points
import proofs.«129154_j2190433321526_2_alg».proof.Proof.Gen.Kernel.Frame
import proofs.«129154_j2190433321526_2_alg».proof.Proof.Gen.KernelIdeal
import proofs.«129154_j2190433321526_2_alg».proof.Proof.Gen.KernelIdeal.Skeleton
import proofs.«129154_j2190433321526_2_alg».proof.Proof.Gen.KernelIdeal.Launch
import proofs.«129154_j2190433321526_2_alg».proof.Proof.Gen.KernelIdeal.Points
import proofs.«129154_j2190433321526_2_alg».proof.Proof.Gen.KernelIdeal.Frame
import proofs.«129154_j2190433321526_2_alg».proof.Proof.Gen.ReferenceIdeal
import proofs.«129154_j2190433321526_2_alg».proof.Proof.Gen.Pre_finite_inputs
import proofs.«129154_j2190433321526_2_alg».proof.Proof.Gen.ReferenceIdeal.Run
import proofs.«129154_j2190433321526_2_alg».proof.Proof.Gen.ReferenceIdeal.Read
import proofs.«129154_j2190433321526_2_alg».proof.Proof.KernelRun
import proofs.«129154_j2190433321526_2_alg».proof.Proof.Fold
import proofs.«129154_j2190433321526_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, its result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the seven arguments both programs end with the result buffer at `HostFns.KV` of the
    arguments: the kernel program by its run read through the segments, the reference by its generated run and the
    bridge `KV_eq`. -/
theorem algebraic : Cert.algebraic_KernelIdeal_ReferenceIdeal := by
  intro m ρ m' ρ' _ hagree
  refine ⟨fun c => Cert.KernelIdeal.HostFns.KV (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Fold.W7_v0 m ρ c), (h c).2⟩)
      (Cert.KernelIdeal.RunValue.run_named (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v53_eq, (hagree c).1, (hagree c).2.1, (hagree c).2.2.1, (hagree c).2.2.2.1,
      (hagree c).2.2.2.2.1, (hagree c).2.2.2.2.2.1, (hagree c).2.2.2.2.2.2]
    exact (Cert.Bridge.KV_eq _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
